-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x4096 : Shape := ⟨3, ![8, 3, 4096]⟩
abbrev S_ : Shape := ⟨0, ![]⟩

class Facts : Prop where
  bcast_S_S8x3x4096 : S_.BroadcastsInDim S8x3x4096 (![] : Fin 0 → Fin S8x3x4096.rank)
  reducesTo_S8x3x4096_S_d0_1_2 : S8x3x4096.ReducesTo [0, 1, 2] S_
  h_S_ : 0 < S_.numel

variable [Facts]

def fn {F : FTy → Type} [FloatOps F] (main_arg0 : FVec F S8x3x4096 .f32) (main_arg1 : FVec F S8x3x4096 .f32) : IVec S_ 1 :=
  let main_v0 : FVec F S8x3x4096 .f32 := Host.absf main_arg0
  let main_cst : FVec F S_ .f32 := constant S_ .f32 0x7F800000#32
  let main_v1 : FVec F S8x3x4096 .f32 := broadcastInDim S8x3x4096 ![] bcast_S_S8x3x4096 main_cst
  let main_v2 : IVec S8x3x4096 1 := cmpf .olt main_v0 main_v1
  let main_c : IVec S_ 1 := constantI S_ 1 1#1
  let main_v3 : IVec S_ 1 := (fun x v => Host.reduce IntOp.andi x v reducesTo_S8x3x4096_S_d0_1_2 h_S_) main_v2 main_c
  let main_v4 : FVec F S8x3x4096 .f32 := Host.absf main_arg1
  let main_cst_0 : FVec F S_ .f32 := constant S_ .f32 0x7F800000#32
  let main_v5 : FVec F S8x3x4096 .f32 := broadcastInDim S8x3x4096 ![] bcast_S_S8x3x4096 main_cst_0
  let main_v6 : IVec S8x3x4096 1 := cmpf .olt main_v4 main_v5
  let main_c_1 : IVec S_ 1 := constantI S_ 1 1#1
  let main_v7 : IVec S_ 1 := (fun x v => Host.reduce IntOp.andi x v reducesTo_S8x3x4096_S_d0_1_2 h_S_) main_v6 main_c_1
  let main_v8 : IVec S_ 1 := andi main_v3 main_v7
  main_v8
-- ==== Kernel.lean ====
abbrev S8x3x4096 : Shape := ⟨3, ![8, 3, 4096]⟩
abbrev S8x1x4096 : Shape := ⟨3, ![8, 1, 4096]⟩
abbrev S1x3x1024 : Shape := ⟨3, ![1, 3, 1024]⟩
abbrev S1x3x4096 : Shape := ⟨3, ![1, 3, 4096]⟩
abbrev S1x1x1024 : Shape := ⟨3, ![1, 1, 1024]⟩
abbrev S1x1x4096 : Shape := ⟨3, ![1, 1, 4096]⟩
abbrev S1x5x4096 : Shape := ⟨3, ![1, 5, 4096]⟩
abbrev S1x4096 : Shape := ⟨2, ![1, 4096]⟩
abbrev S1x1024 : Shape := ⟨2, ![1, 1024]⟩
abbrev S1x5x1024 : Shape := ⟨3, ![1, 5, 1024]⟩
abbrev S1x1024x4096 : Shape := ⟨3, ![1, 1024, 4096]⟩
abbrev S1x1024x1 : Shape := ⟨3, ![1, 1024, 1]⟩
abbrev S8x4096 : Shape := ⟨2, ![8, 4096]⟩
abbrev S8x4096x1 : Shape := ⟨3, ![8, 4096, 1]⟩
abbrev S8x4096x2 : Shape := ⟨3, ![8, 4096, 2]⟩
abbrev S_ : Shape := ⟨0, ![]⟩
abbrev S8 : Shape := ⟨1, ![8]⟩

abbrev nBuf : Space → Nat
  | .hbm => 27
  | .vmem => 9
  | .smem => 0
  | _ => 0

abbrev bufTy : (tb : Table) → Fin (tcTables nBuf tb) → BufTy
  | .hbm, ⟨0, _⟩ => ⟨S8x3x4096, .f32⟩
  | .hbm, ⟨1, _⟩ => ⟨S8x3x4096, .f32⟩
  | .hbm, ⟨2, _⟩ => ⟨S8x1x4096, .f32⟩
  | .hbm, ⟨3, _⟩ => ⟨S8x1x4096, .f32⟩
  | .hbm, ⟨4, _⟩ => ⟨S8x4096, .f32⟩
  | .hbm, ⟨5, _⟩ => ⟨S8x4096, .f32⟩
  | .hbm, ⟨6, _⟩ => ⟨S8x4096x1, .f32⟩
  | .hbm, ⟨7, _⟩ => ⟨S8x4096x1, .f32⟩
  | .hbm, ⟨8, _⟩ => ⟨S8x4096x2, .f32⟩
  | .hbm, ⟨9, _⟩ => ⟨S_, .f32⟩
  | .hbm, ⟨10, _⟩ => ⟨S8x4096x2, .f32⟩
  | .hbm, ⟨11, _⟩ => ⟨S8x4096x2, .f32⟩
  | .hbm, ⟨12, _⟩ => ⟨S_, .f32⟩
  | .hbm, ⟨13, _⟩ => ⟨S8x4096x2, .f32⟩
  | .hbm, ⟨14, _⟩ => ⟨S8x4096x2, .f32⟩
  | .hbm, ⟨15, _⟩ => ⟨S8x4096x2, .f32⟩
  | .hbm, ⟨16, _⟩ => ⟨S_, .f32⟩
  | .hbm, ⟨17, _⟩ => ⟨S8x4096, .f32⟩
  | .hbm, ⟨18, _⟩ => ⟨S_, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S1x3x1024, .f32⟩
  | .local _ .vmem, ⟨1, _⟩ => ⟨S1x3x1024, .f32⟩
  | .local _ .vmem, ⟨2, _⟩ => ⟨S1x3x4096, .f32⟩
  | .local _ .vmem, ⟨3, _⟩ => ⟨S1x3x4096, .f32⟩
  | .local _ .vmem, ⟨4, _⟩ => ⟨S1x1x1024, .f32⟩
  | .local _ .vmem, ⟨5, _⟩ => ⟨S1x1x1024, .f32⟩
  | .local _ .vmem, ⟨6, _⟩ => ⟨S1x1x4096, .f32⟩
  | .local _ .vmem, ⟨7, _⟩ => ⟨S1x1x4096, .f32⟩
  | .local _ .vmem, ⟨8, _⟩ => ⟨S1x5x4096, .f32⟩
  | _, _ => ⟨S8x3x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x1x4096_S1x1x4096_0_0_0 : ∀ a, (![0, 0, 0] : Fin 3 → Nat) a + S1x1x4096.size a ≤ S1x1x4096.size a
  h_S1x1x4096 : 0 < S1x1x4096.numel
  inb_S1x3x4096_S1x3x4096_0_0_0 : ∀ a, (![0, 0, 0] : Fin 3 → Nat) a + S1x3x4096.size a ≤ S1x3x4096.size a
  h_S1x3x4096 : 0 < S1x3x4096.numel
  reduces_S1x3x4096_S1x4096 : S1x3x4096.Reduces [1] S1x4096
  shapeCasts_S1x4096_S1x1x4096 : S1x4096.ShapeCasts S1x1x4096
  concatenates_S1x3x4096_S1x1x4096_S1x1x4096_S1x5x4096_d1 : Shape.Concatenates [S1x3x4096, S1x1x4096, S1x1x4096] S1x5x4096 1
  inb_S1x5x4096_S1x5x4096_0_0_0 : ∀ a, (![0, 0, 0] : Fin 3 → Nat) a + S1x5x4096.size a ≤ S1x5x4096.size a
  h_S1x5x4096 : 0 < S1x5x4096.numel
  shapeCasts_S1x5x4096_S1x5x4096 : S1x5x4096.ShapeCasts S1x5x4096
  inb_S1x3x1024_S1x3x1024_0_0_0 : ∀ a, (![0, 0, 0] : Fin 3 → Nat) a + S1x3x1024.size a ≤ S1x3x1024.size a
  h_S1x3x1024 : 0 < S1x3x1024.numel
  reduces_S1x3x1024_S1x1024 : S1x3x1024.Reduces [1] S1x1024
  shapeCasts_S1x1024_S1x1x1024 : S1x1024.ShapeCasts S1x1x1024
  concatenates_S1x3x1024_S1x1x1024_S1x1x1024_S1x5x1024_d1 : Shape.Concatenates [S1x3x1024, S1x1x1024, S1x1x1024] S1x5x1024 1
  reduces_S1x1024x4096_S1x1024 : S1x1024x4096.Reduces [2] S1x1024
  shapeCasts_S1x1024_S1x1024x1 : S1x1024.ShapeCasts S1x1024x1
  transposes_S1x1024x1_p0_2_1_S1x1x1024 : S1x1024x1.Transposes [0, 2, 1] S1x1x1024
  inb_S1x1x1024_S1x1x1024_0_0_0 : ∀ a, (![0, 0, 0] : Fin 3 → Nat) a + S1x1x1024.size a ≤ S1x1x1024.size a
  h_S1x1x1024 : 0 < S1x1x1024.numel
  reduces_S1x1024x4096_S1x4096 : S1x1024x4096.Reduces [1] S1x4096
  shapeCasts_S1x1x4096_S1x1x4096 : S1x1x4096.ShapeCasts S1x1x4096
  shapeCasts_S8x1x4096_S8x4096 : S8x1x4096.ShapeCasts S8x4096
  bcast_S8x4096_S8x4096x1_0_1 : S8x4096.BroadcastsInDim S8x4096x1 (![0, 1] : Fin 2 → Fin S8x4096x1.rank)
  concatenates_S8x4096x1_S8x4096x1_S8x4096x2_d2 : Shape.Concatenates [S8x4096x1, S8x4096x1] S8x4096x2 2
  bcast_S_S8x4096x2 : S_.BroadcastsInDim S8x4096x2 (![] : Fin 0 → Fin S8x4096x2.rank)
  reducesTo_S8x4096x2_S8x4096_d2 : S8x4096x2.ReducesTo [2] S8x4096
  h_S_ : 0 < S_.numel
  reducesTo_S8x4096_S8_d1 : S8x4096.ReducesTo [1] S8
  bcast_S_S8 : S_.BroadcastsInDim S8 (![] : Fin 0 → Fin S8.rank)
  reducesTo_S8_S_d0 : S8.ReducesTo [0] S_
  dot_S1x5x1024_S1x5x4096_S1x1024x4096_1_1_2_2_0_0_wf : DotDims.WF S1x5x1024 S1x5x4096 S1x1024x4096 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x1024.size a ≤ S8x3x4096.size a
  hwx0_0 : ∀ i : grid0.Coords, EltTy.bits .f32 = 32 ∨ (Rect.block (s := S8x3x4096) S1x3x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S8x3x4096.size a
  hwx0_1 : ∀ i : grid0.Coords, EltTy.bits .f32 = 32 ∨ (Rect.block (s := S8x3x4096) S1x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x4096.size a
  hwx0_2 : ∀ i : grid0.Coords, EltTy.bits .f32 = 32 ∨ (Rect.block (s := S8x1x4096) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)

variable [Facts₀]

def dot_S1x5x1024_S1x5x4096_S1x1024x4096_1_1_2_2_0_0 : DotDims S1x5x1024 S1x5x4096 S1x1024x4096 where
  lhsContracting := [1]
  rhsContracting := [1]
  lhsNonContracting := [2]
  rhsNonContracting := [2]
  lhsBatch := [0]
  rhsBatch := [0]
  wf := dot_S1x5x1024_S1x5x4096_S1x1024x4096_1_1_2_2_0_0_wf

abbrev win0_0 : Pipeline.Window sig grid0 :=
  Pipeline.Window.ofSpec (Memref.whole main_arg0) S1x3x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x3x4096 : Shape := ⟨3, ![8, 3, 4096]⟩
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S8x4096x2 : Shape := ⟨3, ![8, 4096, 2]⟩
abbrev S8 : Shape := ⟨1, ![8]⟩

abbrev nBuf : Space → Nat
  | .hbm => 45
  | .vmem => 0
  | .smem => 0
  | _ => 0

abbrev bufTy : (tb : Table) → Fin (tcTables nBuf tb) → BufTy
  | .hbm, ⟨0, _⟩ => ⟨S8x3x4096, .f32⟩
  | .hbm, ⟨1, _⟩ => ⟨S8x3x4096, .f32⟩
  | .hbm, ⟨2, _⟩ => ⟨S8x4096x3, .f32⟩
  | .hbm, ⟨3, _⟩ => ⟨S8x4096x3, .f32⟩
  | .hbm, ⟨4, _⟩ => ⟨S8x4096x3, .f32⟩
  | .hbm, ⟨5, _⟩ => ⟨S_, .f32⟩
  | .hbm, ⟨6, _⟩ => ⟨S8x4096, .f32⟩
  | .hbm, ⟨7, _⟩ => ⟨S8x4096x3, .f32⟩
  | .hbm, ⟨8, _⟩ => ⟨S_, .f32⟩
  | .hbm, ⟨9, _⟩ => ⟨S8x4096, .f32⟩
  | .hbm, ⟨10, _⟩ => ⟨S8x4096x4096, .f32⟩
  | .hbm, ⟨11, _⟩ => ⟨S8x4096x1, .f32⟩
  | .hbm, ⟨12, _⟩ => ⟨S8x1x4096, .f32⟩
  | .hbm, ⟨13, _⟩ => ⟨S8x4096x4096, .f32⟩
  | .hbm, ⟨14, _⟩ => ⟨S8x4096x4096, .f32⟩
  | .hbm, ⟨15, _⟩ => ⟨S8x4096x4096, .f32⟩
  | .hbm, ⟨16, _⟩ => ⟨S_, .f32⟩
  | .hbm, ⟨17, _⟩ => ⟨S8x4096x4096, .f32⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S8x4096x1, .f32⟩
  | .hbm, ⟨26, _⟩ => ⟨S8x4096x2, .f32⟩
  | .hbm, ⟨27, _⟩ => ⟨S_, .f32⟩
  | .hbm, ⟨28, _⟩ => ⟨S8x4096x2, .f32⟩
  | .hbm, ⟨29, _⟩ => ⟨S8x4096x2, .f32⟩
  | .hbm, ⟨30, _⟩ => ⟨S_, .f32⟩
  | .hbm, ⟨31, _⟩ => ⟨S8x4096x2, .f32⟩
  | .hbm, ⟨32, _⟩ => ⟨S8x4096x2, .f32⟩
  | .hbm, ⟨33, _⟩ => ⟨S8x4096x2, .f32⟩
  | .hbm, ⟨34, _⟩ => ⟨S_, .f32⟩
  | .hbm, ⟨35, _⟩ => ⟨S8x4096, .f32⟩
  | .hbm, ⟨36, _⟩ => ⟨S_, .f32⟩
  | .hbm, ⟨37, _⟩ => ⟨S8, .f32⟩
  | .hbm, ⟨38, _⟩ => ⟨S_, .f32⟩
  | .hbm, ⟨39, _⟩ => ⟨S8, .f32⟩
  | .hbm, ⟨40, _⟩ => ⟨S8, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | _, _ => ⟨S8x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_cst_7 : Ref sig .tc := ⟨.hbm, 36, rfl⟩
abbrev main_v26 : Ref sig .tc := ⟨.hbm, 37, rfl⟩
abbrev main_cst_8 : Ref sig .tc := ⟨.hbm, 38, rfl⟩
abbrev main_v27 : Ref sig .tc := ⟨.hbm, 39, rfl⟩
abbrev main_v28 : Ref sig .tc := ⟨.hbm, 40, rfl⟩
abbrev main_cst_9 : Ref sig .tc := ⟨.hbm, 41, rfl⟩
abbrev main_v29 : Ref sig .tc := ⟨.hbm, 42, rfl⟩
abbrev main_cst_10 : Ref sig .tc := ⟨.hbm, 43, rfl⟩
abbrev main_v30 : Ref sig .tc := ⟨.hbm, 44, rfl⟩

abbrev nD : Nat := 1
abbrev τ : Topo := Topo.v7x

variable {F : FTy → Type} [FloatOps F]

class Facts₀ : Prop where
  transposes_S8x3x4096_S8x4096x3_0_2_1 : S8x3x4096.Transposes [0, 2, 1] S8x4096x3
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d1 : S8x4096x4096.ReducesTo [1] S8x4096
  reducesTo_S8x4096x4096_S8x4096_d2 : S8x4096x4096.ReducesTo [2] S8x4096
  concatenates_S8x4096x1_S8x4096x1_S8x4096x2_d2 : Shape.Concatenates [S8x4096x1, S8x4096x1] S8x4096x2 2
  bcast_S_S8x4096x2 : S_.BroadcastsInDim S8x4096x2 (![] : Fin 0 → Fin S8x4096x2.rank)
  reducesTo_S8x4096x2_S8x4096_d2 : S8x4096x2.ReducesTo [2] S8x4096
  reducesTo_S8x4096_S8_d1 : S8x4096.ReducesTo [1] S8
  bcast_S_S8 : S_.BroadcastsInDim S8 (![] : Fin 0 → Fin S8.rank)
  reducesTo_S8_S_d0 : S8.ReducesTo [0] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.KernelPieces.lean ====
/-
  What one run of the kernel body leaves behind, per control case, as pure terms of what it loaded.
-/
import proofs.«125909_j25039659336371_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0, 0] : Fin 3 → Nat) = fun _ => 0 := funext fun a => by fin_cases a <;> rfl

/-! What each of the two control cases leaves in the two output blocks and in the carried scratch, as the body's
    pure terms of what it loaded.  In the first case of a batch (tile 0) the body first stores +∞ into the running
    minimum and the augmented target rows into the scratch, and then reads both back; in the other case it reads
    what the previous tile left. -/

/-- Later tiles: the block of nearest-target values is the row minimum of the product of this tile's augmented
    source rows with the carried augmented target rows. -/
theorem out_B_2 (c : Dev nD) (i : grid0.Coords) (a2 : Memref sig .tc .vmem S1x3x1024 .f32) (h2 : a2.IsWhole) (a3 : Memref sig .tc .vmem S1x3x4096 .f32) (h3 : a3.IsWhole) (a4 : Memref sig .tc .vmem S1x1x1024 .f32) (h4 : a4.IsWhole) (a5 : Memref sig .tc .vmem S1x1x4096 .f32) (h5 : a5.IsWhole) (a6 : Memref sig .tc .vmem S1x5x4096 .f32) (h6 : a6.IsWhole) (hc : ¬cond0_0 i)
    (x0 : Vec F S1x3x1024 .f32) (x1 : Vec F S1x3x4096 .f32) (xo3 : Vec F S1x1x4096 .f32) (xs0 : Vec F S1x5x4096 .f32) :
    out0_B_2 c i a2 h2 a3 h3 a4 h4 a5 h5 a6 h6 hc x0 x1 xo3 xs0 = k0_pay4 x0 xs0 := by
  unfold out0_B_2
  rw [View.read_writes_eq_canon _ _ _ (cover0_B_2 c i a2 h2 a3 h3 a4 h4 a5 h5 a6 h6 hc x0 x1 xo3 xs0)]
  unfold kernelRun0_B
  dsimp only
  rw [View.canon_unit_zero hz]
  simp only [View.readAt_eq_ld, h2.read_unread, h6.read_unread, View.ld_unit_zero (S := S1x3x1024) hz,
    View.ld_unit_zero (S := S1x5x4096) hz]

/-- Later tiles: the running minimum per target point is the previous one met with this tile's column minimum. -/
theorem out_B_3 (c : Dev nD) (i : grid0.Coords) (a2 : Memref sig .tc .vmem S1x3x1024 .f32) (h2 : a2.IsWhole) (a3 : Memref sig .tc .vmem S1x3x4096 .f32) (h3 : a3.IsWhole) (a4 : Memref sig .tc .vmem S1x1x1024 .f32) (h4 : a4.IsWhole) (a5 : Memref sig .tc .vmem S1x1x4096 .f32) (h5 : a5.IsWhole) (a6 : Memref sig .tc .vmem S1x5x4096 .f32) (h6 : a6.IsWhole) (hc : ¬cond0_0 i)
    (x0 : Vec F S1x3x1024 .f32) (x1 : Vec F S1x3x4096 .f32) (xo3 : Vec F S1x1x4096 .f32) (xs0 : Vec F S1x5x4096 .f32) :
    out0_B_3 c i a2 h2 a3 h3 a4 h4 a5 h5 a6 h6 hc x0 x1 xo3 xs0 = k0_pay5 x0 xs0 xo3 := by
  unfold out0_B_3
  rw [View.read_writes_eq_canon _ _ _ (cover0_B_3 c i a2 h2 a3 h3 a4 h4 a5 h5 a6 h6 hc x0 x1 xo3 xs0)]
  unfold kernelRun0_B
  dsimp only
  rw [View.canon_unit_zero hz]
  simp only [View.readAt_eq_ld, h2.read_unread, h5.read_unread, h6.read_unread, View.ld_unit_zero (S := S1x3x1024) hz,
    View.ld_unit_zero (S := S1x5x4096) hz, View.ld_unit_zero (S := S1x1x4096) hz]

/-- Later tiles leave the scratch as it was. -/
theorem sout_B_0 (c : Dev nD) (i : grid0.Coords) (a2 : Memref sig .tc .vmem S1x3x1024 .f32) (h2 : a2.IsWhole) (a3 : Memref sig .tc .vmem S1x3x4096 .f32) (h3 : a3.IsWhole) (a4 : Memref sig .tc .vmem S1x1x1024 .f32) (h4 : a4.IsWhole) (a5 : Memref sig .tc .vmem S1x1x4096 .f32) (h5 : a5.IsWhole) (a6 : Memref sig .tc .vmem S1x5x4096 .f32) (h6 : a6.IsWhole) (hc : ¬cond0_0 i)
    (x0 : Vec F S1x3x1024 .f32) (x1 : Vec F S1x3x4096 .f32) (xo3 : Vec F S1x1x4096 .f32) (xs0 : Vec F S1x5x4096 .f32) :
    sout0_B_0 c i a2 h2 a3 h3 a4 h4 a5 h5 a6 h6 hc x0 x1 xo3 xs0 = xs0 := rfl

/-- First tile: the scratch receives the augmented target rows built from the target block. -/
theorem sout_A_0 (c : Dev nD) (i : grid0.Coords) (a2 : Memref sig .tc .vmem S1x3x1024 .f32) (h2 : a2.IsWhole) (a3 : Memref sig .tc .vmem S1x3x4096 .f32) (h3 : a3.IsWhole) (a4 : Memref sig .tc .vmem S1x1x1024 .f32) (h4 : a4.IsWhole) (a5 : Memref sig .tc .vmem S1x1x4096 .f32) (h5 : a5.IsWhole) (a6 : Memref sig .tc .vmem S1x5x4096 .f32) (h6 : a6.IsWhole) (hc : cond0_0 i)
    (x0 : Vec F S1x3x1024 .f32) (x1 : Vec F S1x3x4096 .f32) :
    sout0_A_0 c i a2 h2 a3 h3 a4 h4 a5 h5 a6 h6 hc x0 x1 = k0_pay2 x1 := by
  unfold sout0_A_0
  rw [View.read_writes_eq_canon _ _ _ (scover0_A_0 c i a2 h2 a3 h3 a4 h4 a5 h5 a6 h6 hc x0 x1)]
  unfold kernelRun0_A
  dsimp only
  sl_unfold_words
  rw [View.canon_unit_zero hz]
  simp only [View.readAt_eq_ld, h3.read_unread, View.ld_unit_zero (S := S1x3x4096) hz]

/-- First tile: the block of nearest-target values, over the augmented target rows just built. -/
theorem out_A_2 (c : Dev nD) (i : grid0.Coords) (a2 : Memref sig .tc .vmem S1x3x1024 .f32) (h2 : a2.IsWhole) (a3 : Memref sig .tc .vmem S1x3x4096 .f32) (h3 : a3.IsWhole) (a4 : Memref sig .tc .vmem S1x1x1024 .f32) (h4 : a4.IsWhole) (a5 : Memref sig .tc .vmem S1x1x4096 .f32) (h5 : a5.IsWhole) (a6 : Memref sig .tc .vmem S1x5x4096 .f32) (h6 : a6.IsWhole) (hc : cond0_0 i)
    (x0 : Vec F S1x3x1024 .f32) (x1 : Vec F S1x3x4096 .f32) :
    out0_A_2 c i a2 h2 a3 h3 a4 h4 a5 h5 a6 h6 hc x0 x1 = k0_pay4 x0 (k0_pay2 x1) := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_unit_zero hz, View.readCov_unit_zero (S := S1x5x4096) _ hz]
  simp only [View.readAt_eq_ld, h2.read_unread, h3.read_unread, View.ld_unit_zero (S := S1x3x1024) hz,
    View.ld_unit_zero (S := S1x3x4096) hz]

/-- First tile: the running minimum starts from +∞. -/
theorem out_A_3 (c : Dev nD) (i : grid0.Coords) (a2 : Memref sig .tc .vmem S1x3x1024 .f32) (h2 : a2.IsWhole) (a3 : Memref sig .tc .vmem S1x3x4096 .f32) (h3 : a3.IsWhole) (a4 : Memref sig .tc .vmem S1x1x1024 .f32) (h4 : a4.IsWhole) (a5 : Memref sig .tc .vmem S1x1x4096 .f32) (h5 : a5.IsWhole) (a6 : Memref sig .tc .vmem S1x5x4096 .f32) (h6 : a6.IsWhole) (hc : cond0_0 i)
    (x0 : Vec F S1x3x1024 .f32) (x1 : Vec F S1x3x4096 .f32) :
    out0_A_3 c i a2 h2 a3 h3 a4 h4 a5 h5 a6 h6 hc x0 x1 = k0_pay5 x0 (k0_pay2 x1) k0_pay1 := by
  unfold out0_A_3
  rw [View.read_writes_eq_canon _ _ _ (cover0_A_3 c i a2 h2 a3 h3 a4 h4 a5 h5 a6 h6 hc x0 x1)]
  unfold kernelRun0_A
  dsimp only
  sl_unfold_words
  rw [View.canon_cons_unit_zero (S := S1x1x4096) hz, View.readCov_unit_zero (S := S1x5x4096) _ hz,
    View.readCov_unit_zero (S := S1x1x4096) _ hz]
  simp only [View.readAt_eq_ld, h2.read_unread, h3.read_unread, View.ld_unit_zero (S := S1x3x1024) hz,
    View.ld_unit_zero (S := S1x3x4096) hz]

end Cert.KernelIdeal.Pieces
end
-- ==== Proof.LibAxisSums.lean ====
/-
  Lane sums of a rank-3 vector along its middle or its leading axis, at the ideal values, read at an index given by
  its coordinates; and the broadcasts of a rank-3 vector with two or three unit axes, read the same way.  A sum along
  one axis is, at each remaining index, the sum of the source over that axis's coordinate; a broadcast reads the
  operand at zero on each of the operand's unit axes.
-/
import Idealize.ShloMosaic.PureOps.Ideal.Laws
import Idealize.ShloMosaic.Lib.Pipeline.Value
import Idealize.ShloMosaic.Lib.ValueIdx

namespace Cert.Lib

open Idealize.ShloMosaic Idealize.ShloMosaic.ValueIdx

/-- A sum along the middle axis of an `[a, b, c]` vector reads, at `(i, k)`, the sum over the middle coordinate. -/
theorem midSum3_apply {a b c : ℕ} (src : FVec Ideal ⟨3, ![a, b, c]⟩ .f32)
    (h : (⟨3, ![a, b, c]⟩ : Shape).Reduces [1] ⟨2, ![a, c]⟩)
    (hφ : FKind.Formats .f32) (hacc : (0x00000000#32 : BitVec FTy.f32.bits) = FKind.add.neutral .f32 hφ) (i : Fin a) (k : Fin c) :
    multiReduction .add [1] ⟨2, ![a, c]⟩ src 0x00000000#32 h hφ hacc (ix2 i k) = ∑ j : Fin b, src (ix3 i j k) := by
  refine (Ideal.multiReduction_add_single src 0x00000000#32 h hφ hacc (ix2 i k)).trans ?_
  refine Finset.sum_congr rfl fun j _ => ?_
  exact congrArg src (funext fun ax => Fin.ext (by match ax with | ⟨0, _⟩ => rfl | ⟨1, _⟩ => rfl | ⟨2, _⟩ => rfl))

/-- A sum along the leading axis of an `[a, b, c]` vector reads, at `(j, k)`, the sum over the leading coordinate. -/
theorem leadSum3_apply {a b c : ℕ} (src : FVec Ideal ⟨3, ![a, b, c]⟩ .f32)
    (h : (⟨3, ![a, b, c]⟩ : Shape).Reduces [0] ⟨2, ![b, c]⟩)
    (hφ : FKind.Formats .f32) (hacc : (0x00000000#32 : BitVec FTy.f32.bits) = FKind.add.neutral .f32 hφ) (j : Fin b) (k : Fin c) :
    multiReduction .add [0] ⟨2, ![b, c]⟩ src 0x00000000#32 h hφ hacc (ix2 j k) = ∑ i : Fin a, src (ix3 i j k) := by
  refine (Ideal.multiReduction_add_single src 0x00000000#32 h hφ hacc (ix2 j k)).trans ?_
  refine Finset.sum_congr rfl fun i _ => ?_
  exact congrArg src (funext fun ax => Fin.ext (by match ax with | ⟨0, _⟩ => rfl | ⟨1, _⟩ => rfl | ⟨2, _⟩ => rfl))

variable {α : Type}

/-- A `[1, b, 1]` array broadcast to `[a, b, c]` reads, at `(i, j, k)`, the operand at `(0, j, 0)`. -/
theorem broadcastTo_1b1_abc_apply {a b c : ℕ} (v : (⟨3, ![1, b, 1]⟩ : Shape).Idx → α)
    (h : (⟨3, ![1, b, 1]⟩ : Shape).Broadcasts ⟨3, ![a, b, c]⟩) (i : Fin a) (j : Fin b) (k : Fin c) :
    broadcastTo ⟨3, ![a, b, c]⟩ v h (ix3 i j k) = v (ix3 (0 : Fin 1) j (0 : Fin 1)) := by
  refine broadcastTo_apply v h (ix3 i j k) (ix3 (0 : Fin 1) j (0 : Fin 1)) fun ax => ?_
  match ax with
  | ⟨0, _⟩ => rfl
  | ⟨1, _⟩ =>
    show j.val = if b = 1 then 0 else j.val
    split
    · have := j.isLt; omega
    · rfl
  | ⟨2, _⟩ => rfl

/-- A `[1, 1, 1]` array broadcast to `[a, b, c]` reads, at every index, the operand's one element. -/
theorem broadcastTo_111_abc_apply {a b c : ℕ} (v : (⟨3, ![1, 1, 1]⟩ : Shape).Idx → α)
    (h : (⟨3, ![1, 1, 1]⟩ : Shape).Broadcasts ⟨3, ![a, b, c]⟩) (i : Fin a) (j : Fin b) (k : Fin c) :
    broadcastTo ⟨3, ![a, b, c]⟩ v h (ix3 i j k) = v (ix3 (0 : Fin 1) (0 : Fin 1) (0 : Fin 1)) := by
  refine broadcastTo_apply v h (ix3 i j k) (ix3 (0 : Fin 1) (0 : Fin 1) (0 : Fin 1)) fun ax => ?_
  match ax with
  | ⟨0, _⟩ => rfl
  | ⟨1, _⟩ => rfl
  | ⟨2, _⟩ => rfl

end Cert.Lib
-- ==== Proof.LibFiniteEntries.lean ====
/-
  "Every float input is finite", read back at the ideal values. A precondition of that kind says of an array that the
  join by "and", over all its entries, of the comparisons |entry| < +∞ is the bit 1. Then every one of the comparisons
  is 1, and an extended real x with max(x, −x) < +∞ is neither +∞ nor −∞: it is a real number. `allReal_of_join` is
  that statement for one array of any shape, `AllReal` the property it yields; `coe_sum` says that the inclusion of
  the reals in the extended reals carries a finite sum to the sum of the images (which lets an identity between finite
  sums of real entries be proved over the reals).
-/
import Idealize.ShloMosaic.Lib.ReduceAll
import Idealize.ShloMosaic.Lib.ValueIdx
import Idealize.ShloMosaic.PureOps.Ideal.Laws

noncomputable section

namespace Cert.LibFiniteEntries

open Idealize.ShloMosaic

/-- Every entry of an array of extended reals is a real number. -/
def AllReal {s : Shape} (v : s.Idx → EReal) : Prop := ∀ i, ∃ r : ℝ, v i = (r : EReal)

/-- The inclusion of the reals in the extended reals carries a finite sum to the sum of the images. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An array with no axes has one index. -/
instance : Subsingleton (⟨0, ![]⟩ : Shape).Idx := ⟨fun a b => funext fun d => d.elim0⟩

/-- The word 0x7F800000 denotes +∞. -/
theorem bound_is_top : Ideal.ofBits .f32 0x7F800000#32 = (⊤ : EReal) := by simp [Ideal.ofBits, Ideal.ieee]

/-- An extended real whose absolute value max(x, −x) is below +∞ is a real number. -/
theorem real_of_abs_lt_top (x : EReal) (h : Ideal.cmp .olt (max x (-x)) (Ideal.ofBits .f32 0x7F800000#32) = 1#1) :
    ∃ r : ℝ, x = (r : EReal) := by
  rw [bound_is_top] at h
  have hlt : max x (-x) < ⊤ := by
    unfold Ideal.cmp at h
    by_contra hn
    simp [hn] at h
  induction x using EReal.rec with
  | bot => simp at hlt
  | coe r => exact ⟨r, rfl⟩
  | top => simp at hlt

/-- One array's share of a finiteness precondition: if the join by "and" of |entry| < +∞ over all entries is 1, every
    entry is real. -/
theorem allReal_of_join {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (h : Host.reduce IntOp.andi
      (cmpf .olt (Host.absf x) (broadcastInDim s ![] hb (constant ⟨0, ![]⟩ .f32 0x7F800000#32)))
      (constantI ⟨0, ![]⟩ 1 1#1) hr hu ValueIdx.ix0 = 1#1) : AllReal x := fun i =>
  real_of_abs_lt_top (x i) (Host.reduce_andi_all _ _ hr hu ValueIdx.ix0 h i)

end Cert.LibFiniteEntries

end
-- ==== Proof.KernelPayloads.lean ====
/-
  The body's arithmetic read entry by entry at the ideal values.  With s the source block [1, 3, 1024] of one tile and
  A the five augmented target rows [1, 5, 4096]:
    rows of A built from a target block t:   A[d] = −2·t[d] (d < 3),  A[3] = Σ_d t[d]²,  A[4] = 1;
    the product P[r, q] = s[0,r]·A[0,q] + s[1,r]·A[1,q] + s[2,r]·A[2,q] + 1·A[3,q] + (Σ_d s[d,r]²)·A[4,q];
    the block of nearest-target values at r is the minimum over q of P[r, q];
    the running minimum at q becomes min(previous, minimum over r of P[r, q]).
-/
import proofs.«125909_j25039659336371_2_alg».proof.Proof.Gen.KernelIdeal.Skeleton
import proofs.«125909_j25039659336371_2_alg».proof.Proof.LibAxisSums
import proofs.«125909_j25039659336371_2_alg».proof.Proof.LibFiniteEntries
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

open Idealize.ShloMosaic Idealize.ShloMosaic.ValueIdx

namespace Cert.KernelIdeal.Payloads

open Cert.KernelIdeal Cert.KernelIdeal.Gen

/-! ## Layout pieces -/

variable {α : Type}

/-- Three pieces [1,3,n], [1,1,n], [1,1,n] joined along the middle axis: rows 0–2 come from the first piece, -/
theorem cat_mid_lo {n : ℕ} (x1 : (⟨3, ![1, 3, n]⟩ : Shape).Idx → α) (x2 x3 : (⟨3, ![1, 1, n]⟩ : Shape).Idx → α)
    (h : Shape.Concatenates [⟨3, ![1, 3, n]⟩, ⟨3, ![1, 1, n]⟩, ⟨3, ![1, 1, n]⟩] ⟨3, ![1, 5, n]⟩ 1) (d : Fin 3) (q : Fin n) :
    concatenate ⟨3, ![1, 5, n]⟩ 1 [⟨⟨3, ![1, 3, n]⟩, x1⟩, ⟨⟨3, ![1, 1, n]⟩, x2⟩, ⟨⟨3, ![1, 1, n]⟩, x3⟩] h
        (ix3 (0 : Fin 1) (⟨d.val, by omega⟩ : Fin 5) q) = x1 (ix3 (0 : Fin 1) d q) :=
  concatenate_apply_piece 1 [⟨⟨3, ![1, 3, n]⟩, x1⟩, ⟨⟨3, ![1, 1, n]⟩, x2⟩, ⟨⟨3, ![1, 1, n]⟩, x3⟩] h _ 0 (by show (0 : ℕ) < 3; omega) ⟨3, ![1, 3, n]⟩ x1 rfl rfl 0 rfl (ix3 (0 : Fin 1) d q)
    (fun b hb => by match b with | ⟨0, _⟩ => rfl | ⟨1, _⟩ => exact absurd rfl hb | ⟨2, _⟩ => rfl) (Nat.zero_add _)

/-- row 3 from the second, -/
theorem cat_mid_3 {n : ℕ} (x1 : (⟨3, ![1, 3, n]⟩ : Shape).Idx → α) (x2 x3 : (⟨3, ![1, 1, n]⟩ : Shape).Idx → α)
    (h : Shape.Concatenates [⟨3, ![1, 3, n]⟩, ⟨3, ![1, 1, n]⟩, ⟨3, ![1, 1, n]⟩] ⟨3, ![1, 5, n]⟩ 1) (q : Fin n) :
    concatenate ⟨3, ![1, 5, n]⟩ 1 [⟨⟨3, ![1, 3, n]⟩, x1⟩, ⟨⟨3, ![1, 1, n]⟩, x2⟩, ⟨⟨3, ![1, 1, n]⟩, x3⟩] h
        (ix3 (0 : Fin 1) (3 : Fin 5) q) = x2 (ix3 (0 : Fin 1) (0 : Fin 1) q) :=
  concatenate_apply_piece 1 [⟨⟨3, ![1, 3, n]⟩, x1⟩, ⟨⟨3, ![1, 1, n]⟩, x2⟩, ⟨⟨3, ![1, 1, n]⟩, x3⟩] h _ 1 (by show (1 : ℕ) < 3; omega) ⟨3, ![1, 1, n]⟩ x2 rfl rfl 3 rfl (ix3 (0 : Fin 1) (0 : Fin 1) q)
    (fun b hb => by match b with | ⟨0, _⟩ => rfl | ⟨1, _⟩ => exact absurd rfl hb | ⟨2, _⟩ => rfl) rfl

/-- row 4 from the third. -/
theorem cat_mid_4 {n : ℕ} (x1 : (⟨3, ![1, 3, n]⟩ : Shape).Idx → α) (x2 x3 : (⟨3, ![1, 1, n]⟩ : Shape).Idx → α)
    (h : Shape.Concatenates [⟨3, ![1, 3, n]⟩, ⟨3, ![1, 1, n]⟩, ⟨3, ![1, 1, n]⟩] ⟨3, ![1, 5, n]⟩ 1) (q : Fin n) :
    concatenate ⟨3, ![1, 5, n]⟩ 1 [⟨⟨3, ![1, 3, n]⟩, x1⟩, ⟨⟨3, ![1, 1, n]⟩, x2⟩, ⟨⟨3, ![1, 1, n]⟩, x3⟩] h
        (ix3 (0 : Fin 1) (4 : Fin 5) q) = x3 (ix3 (0 : Fin 1) (0 : Fin 1) q) :=
  concatenate_apply_piece 1 [⟨⟨3, ![1, 3, n]⟩, x1⟩, ⟨⟨3, ![1, 1, n]⟩, x2⟩, ⟨⟨3, ![1, 1, n]⟩, x3⟩] h _ 2 (by show (2 : ℕ) < 3; omega) ⟨3, ![1, 1, n]⟩ x3 rfl rfl 4 rfl (ix3 (0 : Fin 1) (0 : Fin 1) q)
    (fun b hb => by match b with | ⟨0, _⟩ => rfl | ⟨1, _⟩ => exact absurd rfl hb | ⟨2, _⟩ => rfl) rfl

/-- A [1, n] row seen as [1, n, 1] reads the row. -/
theorem cast_row_col {n : ℕ} (x : (⟨2, ![1, n]⟩ : Shape).Idx → α) (h : (⟨2, ![1, n]⟩ : Shape).ShapeCasts ⟨3, ![1, n, 1]⟩)
    (r : Fin n) : shapeCast ⟨3, ![1, n, 1]⟩ x h (ix3 (0 : Fin 1) r (0 : Fin 1)) = x (ix2 (0 : Fin 1) r) :=
  shapeCast_apply x h _ _ (by
    rw [Shape.rowMajor_val_three, Shape.rowMajor_val_two]
    show 0 * n + r.val = (0 * n + r.val) * 1 + 0
    omega)

/-! ## Minima -/

/-- A fold of min from +∞ is the infimum. -/
theorem fold_min_top {ι : Type*} (s : Finset ι) (f : ι → EReal) : s.fold min ⊤ f = s.inf f := by
  classical
  induction s using Finset.induction_on with
  | empty => simp
  | insert a s ha ih => rw [Finset.fold_insert ha, Finset.inf_insert, ih]

/-- A lane minimum over one axis, at the ideal values, is the infimum over that axis's coordinate. -/
theorem minReduce_single {s t : Shape} {a : Fin s.rank} (src : FVec Ideal s .f32)
    (h : s.Reduces [a] t) (hφ : FKind.Formats .f32) (hacc : (0x7F800000#32 : BitVec FTy.f32.bits) = FKind.minimumf.neutral .f32 hφ) (j : t.Idx) :
    multiReduction .minimumf [a] t src 0x7F800000#32 h hφ hacc j
      = (Finset.univ : Finset (Fin (s.size a))).inf (src ∘ h.lift j) := by
  rw [multiReduction_minimumf_eq_fold]
  refine (h.fold_filter_drop_single _ _ src j).trans ?_
  show Finset.fold min (Ideal.ofBits .f32 0x7F800000#32) _ _ = _
  rw [Cert.LibFiniteEntries.bound_is_top]
  exact fold_min_top _ _

/-! ## The product of the augmented rows -/

open Cert.Lib

/-- The record of the kernel's one matrix product: batch axis 0, contraction over the five augmented rows (axis 1 of
    both operands), source points and target points kept. -/
abbrev dotD := dot_S1x5x1024_S1x5x4096_S1x1024x4096_1_1_2_2_0_0

theorem lhs_0 (j : S1x1024x4096.Idx) (k : dotD.contr.Idx) : (dotD.lhsIdx j k 0).val = (j 0).val := by
  unfold DotDims.lhsIdx
  rw [dif_pos (show (0 : Fin S1x5x1024.rank) ∈ dotD.lhsBatch by decide)]
  rfl
theorem lhs_1 (j : S1x1024x4096.Idx) (k : dotD.contr.Idx) : (dotD.lhsIdx j k 1).val = (k ⟨0, by decide⟩).val :=
  dotD.lhsIdx_val_of_single rfl j k
theorem lhs_2 (j : S1x1024x4096.Idx) (k : dotD.contr.Idx) : (dotD.lhsIdx j k 2).val = (j 1).val := by
  unfold DotDims.lhsIdx
  rw [dif_neg (show ¬(2 : Fin S1x5x1024.rank) ∈ dotD.lhsBatch by decide),
    dif_pos (show (2 : Fin S1x5x1024.rank) ∈ dotD.lhsNonContracting by decide)]
  rfl
theorem rhs_0 (j : S1x1024x4096.Idx) (k : dotD.contr.Idx) : (dotD.rhsIdx j k 0).val = (j 0).val := by
  unfold DotDims.rhsIdx
  rw [dif_pos (show (0 : Fin S1x5x4096.rank) ∈ dotD.rhsBatch by decide)]
  rfl
theorem rhs_1 (j : S1x1024x4096.Idx) (k : dotD.contr.Idx) : (dotD.rhsIdx j k 1).val = (k ⟨0, by decide⟩).val :=
  dotD.rhsIdx_val_of_single rfl j k
theorem rhs_2 (j : S1x1024x4096.Idx) (k : dotD.contr.Idx) : (dotD.rhsIdx j k 2).val = (j 2).val := by
  unfold DotDims.rhsIdx
  rw [dif_neg (show ¬(2 : Fin S1x5x4096.rank) ∈ dotD.rhsBatch by decide),
    dif_pos (show (2 : Fin S1x5x4096.rank) ∈ dotD.rhsNonContracting by decide)]
  rfl

/-- The product into a zero accumulator, at (r, q): the sum over the five rows of left[d, r] · right[d, q]. -/
theorem matmul_entry (L : FVec Ideal S1x5x1024 .f32) (R : FVec Ideal S1x5x4096 .f32) (r : Fin 1024) (q : Fin 4096) :
    matmul dotD none L R (constant (F := Ideal) S1x1024x4096 .f32 0x00000000#32) (ix3 (0 : Fin 1) r q)
      = ∑ d : Fin 5, L (ix3 (0 : Fin 1) d r) * R (ix3 (0 : Fin 1) d q) := by
  simp only [matmul]
  rw [Ideal.matmul_constant_zero_apply, ← Equiv.sum_comp (contrEquiv1 dotD 5 rfl rfl).symm]
  refine Finset.sum_congr rfl fun k _ => ?_
  have hk := contrEquiv1_symm_val dotD 5 rfl rfl k
  have el : dotD.lhsIdx (ix3 (0 : Fin 1) r q) ((contrEquiv1 dotD 5 rfl rfl).symm k) = ix3 (0 : Fin 1) k r :=
    funext fun a => Fin.ext (by
      match a with
      | ⟨0, _⟩ => exact lhs_0 _ _
      | ⟨1, _⟩ => exact (lhs_1 _ _).trans hk
      | ⟨2, _⟩ => exact lhs_2 _ _)
  have er : dotD.rhsIdx (ix3 (0 : Fin 1) r q) ((contrEquiv1 dotD 5 rfl rfl).symm k) = ix3 (0 : Fin 1) k q :=
    funext fun a => Fin.ext (by
      match a with
      | ⟨0, _⟩ => exact rhs_0 _ _
      | ⟨1, _⟩ => exact (rhs_1 _ _).trans hk
      | ⟨2, _⟩ => exact rhs_2 _ _)
  rw [el, er]

/-! ## The payloads at an entry -/

/-- The value stored first into the running minimum is +∞ everywhere. -/
theorem pay1_apply (q : Fin 4096) : k0_pay1 (F := Ideal) (ix3 (0 : Fin 1) (0 : Fin 1) q) = ⊤ :=
  Cert.LibFiniteEntries.bound_is_top

/-- Augmented target rows 0–2: −2 times the coordinate. -/
theorem pay2_lo (x1 : FVec Ideal S1x3x4096 .f32) (d : Fin 3) (q : Fin 4096) :
    k0_pay2 (F := Ideal) x1 (ix3 (0 : Fin 1) (⟨d.val, by omega⟩ : Fin 5) q)
      = Ideal.ofBits .f32 0xC0000000#32 * x1 (ix3 (0 : Fin 1) d q) := by
  unfold k0_pay2
  dsimp only
  rw [shapeCast_self]
  exact cat_mid_lo _ _ _ _ d q

/-- Augmented target row 3: the squared length. -/
theorem pay2_3 (x1 : FVec Ideal S1x3x4096 .f32) (q : Fin 4096) :
    k0_pay2 (F := Ideal) x1 (ix3 (0 : Fin 1) (3 : Fin 5) q) = ∑ d : Fin 3, x1 (ix3 (0 : Fin 1) d q) * x1 (ix3 (0 : Fin 1) d q) := by
  unfold k0_pay2
  dsimp only
  rw [shapeCast_self]
  refine (cat_mid_3 _ _ _ _ q).trans ?_
  refine (shapeCast_ab_1ab_apply _ _ (0 : Fin 1) (0 : Fin 1) q).trans ?_
  exact midSum3_apply _ _ _ _ (0 : Fin 1) q

/-- Augmented target row 4: the constant 1. -/
theorem pay2_4 (x1 : FVec Ideal S1x3x4096 .f32) (q : Fin 4096) :
    k0_pay2 (F := Ideal) x1 (ix3 (0 : Fin 1) (4 : Fin 5) q) = Ideal.ofBits .f32 0x3F800000#32 := by
  unfold k0_pay2
  dsimp only
  rw [shapeCast_self]
  exact cat_mid_4 _ _ _ _ q

/-- The product of this tile's augmented source rows [s, 1, |s|²] with five rows A, at (r, q). -/
theorem pay3_apply (x0 : FVec Ideal S1x3x1024 .f32) (A : FVec Ideal S1x5x4096 .f32) (r : Fin 1024) (q : Fin 4096) :
    k0_pay3 (F := Ideal) x0 A (ix3 (0 : Fin 1) r q)
      = x0 (ix3 (0 : Fin 1) (0 : Fin 3) r) * A (ix3 (0 : Fin 1) (0 : Fin 5) q)
        + x0 (ix3 (0 : Fin 1) (1 : Fin 3) r) * A (ix3 (0 : Fin 1) (1 : Fin 5) q)
        + x0 (ix3 (0 : Fin 1) (2 : Fin 3) r) * A (ix3 (0 : Fin 1) (2 : Fin 5) q)
        + Ideal.ofBits .f32 0x3F800000#32 * A (ix3 (0 : Fin 1) (3 : Fin 5) q)
        + (∑ d : Fin 3, x0 (ix3 (0 : Fin 1) d r) * x0 (ix3 (0 : Fin 1) d r)) * A (ix3 (0 : Fin 1) (4 : Fin 5) q) := by
  unfold k0_pay3
  dsimp only
  refine (matmul_entry _ A r q).trans ?_
  rw [Fin.sum_univ_five]
  have e0 := cat_mid_lo x0 (broadcast S1x1x1024 (Scalar.ofBits (F := Ideal) .f32 0x3F800000#32))
    (shapeCast S1x1x1024 (multiReduction .add [1] S1x1024 (mulf x0 x0) 0x00000000#32 reduces_S1x3x1024_S1x1024 (.inl rfl) rfl) shapeCasts_S1x1024_S1x1x1024)
    concatenates_S1x3x1024_S1x1x1024_S1x1x1024_S1x5x1024_d1 (0 : Fin 3) r
  have e1 := cat_mid_lo x0 (broadcast S1x1x1024 (Scalar.ofBits (F := Ideal) .f32 0x3F800000#32))
    (shapeCast S1x1x1024 (multiReduction .add [1] S1x1024 (mulf x0 x0) 0x00000000#32 reduces_S1x3x1024_S1x1024 (.inl rfl) rfl) shapeCasts_S1x1024_S1x1x1024)
    concatenates_S1x3x1024_S1x1x1024_S1x1x1024_S1x5x1024_d1 (1 : Fin 3) r
  have e2 := cat_mid_lo x0 (broadcast S1x1x1024 (Scalar.ofBits (F := Ideal) .f32 0x3F800000#32))
    (shapeCast S1x1x1024 (multiReduction .add [1] S1x1024 (mulf x0 x0) 0x00000000#32 reduces_S1x3x1024_S1x1024 (.inl rfl) rfl) shapeCasts_S1x1024_S1x1x1024)
    concatenates_S1x3x1024_S1x1x1024_S1x1x1024_S1x5x1024_d1 (2 : Fin 3) r
  have e3 := cat_mid_3 x0 (broadcast S1x1x1024 (Scalar.ofBits (F := Ideal) .f32 0x3F800000#32))
    (shapeCast S1x1x1024 (multiReduction .add [1] S1x1024 (mulf x0 x0) 0x00000000#32 reduces_S1x3x1024_S1x1024 (.inl rfl) rfl) shapeCasts_S1x1024_S1x1x1024)
    concatenates_S1x3x1024_S1x1x1024_S1x1x1024_S1x5x1024_d1 r
  have e4 := (cat_mid_4 x0 (broadcast S1x1x1024 (Scalar.ofBits (F := Ideal) .f32 0x3F800000#32))
    (shapeCast S1x1x1024 (multiReduction .add [1] S1x1024 (mulf x0 x0) 0x00000000#32 reduces_S1x3x1024_S1x1024 (.inl rfl) rfl) shapeCasts_S1x1024_S1x1x1024)
    concatenates_S1x3x1024_S1x1x1024_S1x1x1024_S1x5x1024_d1 r).trans
      ((shapeCast_ab_1ab_apply _ _ (0 : Fin 1) (0 : Fin 1) r).trans (midSum3_apply (mulf x0 x0) _ _ _ (0 : Fin 1) r))
  exact congr (congrArg HAdd.hAdd (congr (congrArg HAdd.hAdd (congr (congrArg HAdd.hAdd (congr (congrArg HAdd.hAdd
    (congrArg (· * _) e0)) (congrArg (· * _) e1))) (congrArg (· * _) e2))) (congrArg (· * _) e3))) (congrArg (· * _) e4)

/-- The block of nearest-target values: at source row r, the minimum over the target points of the product. -/
theorem pay4_apply (x0 : FVec Ideal S1x3x1024 .f32) (A : FVec Ideal S1x5x4096 .f32) (r : Fin 1024) :
    k0_pay4 (F := Ideal) x0 A (ix3 (0 : Fin 1) (0 : Fin 1) r)
      = Finset.univ.inf fun q : Fin 4096 => k0_pay3 (F := Ideal) x0 A (ix3 (0 : Fin 1) r q) := by
  unfold k0_pay4
  dsimp only
  refine (transpose_ix3_021_apply _ _ (0 : Fin 1) (0 : Fin 1) r).trans ?_
  refine (cast_row_col _ _ r).trans ?_
  refine (minReduce_single _ _ _ _ (ix2 (0 : Fin 1) r)).trans ?_
  refine congrArg (Finset.univ.inf) (funext fun q => ?_)
  exact congrArg (k0_pay3 (F := Ideal) x0 A) (funext fun ax => Fin.ext (by
    match ax with | ⟨0, _⟩ => rfl | ⟨1, _⟩ => rfl | ⟨2, _⟩ => rfl))

/-- The running minimum per target point q: the previous value met with the minimum over this tile's source rows. -/
theorem pay5_apply (x0 : FVec Ideal S1x3x1024 .f32) (A : FVec Ideal S1x5x4096 .f32) (prev : FVec Ideal S1x1x4096 .f32)
    (q : Fin 4096) :
    k0_pay5 (F := Ideal) x0 A prev (ix3 (0 : Fin 1) (0 : Fin 1) q)
      = min (prev (ix3 (0 : Fin 1) (0 : Fin 1) q)) (Finset.univ.inf fun r : Fin 1024 => k0_pay3 (F := Ideal) x0 A (ix3 (0 : Fin 1) r q)) := by
  unfold k0_pay5
  dsimp only
  rw [shapeCast_self]
  refine (minimumf_apply _ _ _).trans ?_
  refine congrArg (min _) ?_
  refine (shapeCast_ab_1ab_apply _ _ (0 : Fin 1) (0 : Fin 1) q).trans ?_
  refine (minReduce_single _ _ _ _ (ix2 (0 : Fin 1) q)).trans ?_
  refine congrArg (Finset.univ.inf) (funext fun r => ?_)
  exact congrArg (k0_pay3 (F := Ideal) x0 A) (funext fun ax => Fin.ext (by
    match ax with | ⟨0, _⟩ => rfl | ⟨1, _⟩ => rfl | ⟨2, _⟩ => rfl))

end Cert.KernelIdeal.Payloads

end
-- ==== Proof.Spec.lean ====
/-
  The two-sided nearest-point ("chamfer") distances between two clouds of 4096 points of ℝ³, eight batches at a time,
  as extended reals.  A cloud is an array X[b, d, n]: batch b, coordinate d < 3, point n.  For a source point i and a
  target point q of one batch the squared distance |s_i − t_q|² can be arranged in two ways:

    distR   (|s_i|² + |t_q|²) − 2 · ⟨s_i, t_q⟩                       (three separate sums, then combined)
    distK   Σ_{d<3} s_i[d] · (−2 · t_q[d])  +  1 · |t_q|²  +  |s_i|² · 1   (one five-term product of augmented rows)

  On real entries the two agree (the module Algebra proves it); with an infinite entry they need not, which is why
  the agreement is only used for finite inputs.  From a distance table D the nearest-target value of source i is the
  minimum over q of D b i q, the nearest-source value of target q the minimum over i; a minimum over the 4096 source
  points can be taken 1024 points at a time, keeping a running minimum that starts at +∞ (prefInf / tileInf).
  Both programs end with the same robust average of the two families of minima: `tail`.
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- A batch of point clouds: [batch, coordinate, point]. -/
abbrev Cloud : Shape := ⟨3, ![8, 3, 4096]⟩
/-- One value per batch and point. -/
abbrev Rows : Shape := ⟨2, ![8, 4096]⟩
abbrev Col : Shape := ⟨3, ![8, 4096, 1]⟩
abbrev Pair : Shape := ⟨3, ![8, 4096, 2]⟩
abbrev Batch : Shape := ⟨1, ![8]⟩
abbrev Scalar0 : Shape := ⟨0, ![]⟩

/-- The float words −2.0, 1.0 and 2.0 as the extended reals they denote. -/
def negTwo : EReal := Ideal.ofBits .f32 0xC0000000#32
def one : EReal := Ideal.ofBits .f32 0x3F800000#32
def two : EReal := Ideal.ofBits .f32 0x40000000#32

/-- |x_n|² of point n of batch b. -/
def sqLen (X : Cloud.Idx → EReal) (b : Fin 8) (n : Fin 4096) : EReal :=
  ∑ d : Fin 3, X (ix3 b d n) * X (ix3 b d n)

/-- ⟨s_i, t_q⟩. -/
def cross (S T : Cloud.Idx → EReal) (b : Fin 8) (i q : Fin 4096) : EReal :=
  ∑ d : Fin 3, S (ix3 b d i) * T (ix3 b d q)

/-- The squared distance arranged as three sums combined: (|s_i|² + |t_q|²) − 2⟨s_i, t_q⟩. -/
def distR (S T : Cloud.Idx → EReal) (b : Fin 8) (i q : Fin 4096) : EReal :=
  (sqLen S b i + sqLen T b q) - two * cross S T b i q

/-- The squared distance arranged as one product of the augmented rows [s, 1, |s|²] and [−2t, |t|², 1]. -/
def distK (S T : Cloud.Idx → EReal) (b : Fin 8) (i q : Fin 4096) : EReal :=
  S (ix3 b (0 : Fin 3) i) * (negTwo * T (ix3 b (0 : Fin 3) q))
    + S (ix3 b (1 : Fin 3) i) * (negTwo * T (ix3 b (1 : Fin 3) q))
    + S (ix3 b (2 : Fin 3) i) * (negTwo * T (ix3 b (2 : Fin 3) q))
    + one * sqLen T b q + sqLen S b i * one

/-- For each source point, the least distance to a target point. -/
def nearestTgt (D : Fin 8 → Fin 4096 → Fin 4096 → EReal) : Rows.Idx → EReal :=
  fun j => Finset.univ.inf fun q : Fin 4096 => D (j 0) (j 1) q

/-- For each target point, the least distance to a source point. -/
def nearestSrc (D : Fin 8 → Fin 4096 → Fin 4096 → EReal) : Rows.Idx → EReal :=
  fun j => Finset.univ.inf fun i : Fin 4096 => D (j 0) i (j 1)

theorem nearestTgt_apply (D : Fin 8 → Fin 4096 → Fin 4096 → EReal) (b : Fin 8) (i : Fin 4096) :
    nearestTgt D (ix2 b i) = Finset.univ.inf fun q : Fin 4096 => D b i q := rfl

theorem nearestSrc_apply (D : Fin 8 → Fin 4096 → Fin 4096 → EReal) (b : Fin 8) (q : Fin 4096) :
    nearestSrc D (ix2 b q) = Finset.univ.inf fun i : Fin 4096 => D b i q := rfl

/-- The minimum of f over the first 1024·k points. -/
def prefInf (f : Fin 4096 → EReal) (k : ℕ) : EReal :=
  (Finset.univ.filter fun i : Fin 4096 => i.val < 1024 * k).inf f

/-- The minimum of f over the points 1024·n, …, 1024·n + 1023 (n < 4). -/
def tileInf (f : Fin 4096 → EReal) (n : ℕ) (hn : n < 4) : EReal :=
  Finset.univ.inf fun r : Fin 1024 => f ⟨1024 * n + r.val, by have := r.isLt; omega⟩

theorem cat_cols : Shape.Concatenates [Col, Col] Pair 2 := by decide

/-- What both programs do with the two families of minima dt (per target point) and ds (per source point): pair them,
    pass each through x ↦ 1·x / (x + 1), add each pair, average over the points and then over the batches. -/
def tail (dt ds : Rows.Idx → EReal) : Scalar0.Idx → EReal :=
  Host.divf (F := Ideal)
    (Host.reduceAdd (F := Ideal)
      (Host.divf (F := Ideal)
        (Host.reduceAdd (F := Ideal)
          (Host.reduceAdd (F := Ideal)
            (Host.divf (F := Ideal)
              (mulf (F := Ideal) (broadcastInDim Pair ![] (by decide) (constant (F := Ideal) Scalar0 .f32 0x3F800000#32))
                (concatenate Pair 2 [⟨Col, broadcastInDim Col ![0, 1] (by decide) dt⟩, ⟨Col, broadcastInDim Col ![0, 1] (by decide) ds⟩] cat_cols))
              (addf (F := Ideal)
                (concatenate Pair 2 [⟨Col, broadcastInDim Col ![0, 1] (by decide) dt⟩, ⟨Col, broadcastInDim Col ![0, 1] (by decide) ds⟩] cat_cols)
                (broadcastInDim Pair ![] (by decide) (constant (F := Ideal) Scalar0 .f32 0x3F800000#32))))
            (constant (F := Ideal) Scalar0 .f32 0x00000000#32) (by decide : Pair.ReducesTo [2] Rows) (by decide))
          (constant (F := Ideal) Scalar0 .f32 0x00000000#32) (by decide : Rows.ReducesTo [1] Batch) (by decide))
        (broadcastInDim Batch ![] (by decide) (constant (F := Ideal) Scalar0 .f32 0x45800000#32)))
      (constant (F := Ideal) Scalar0 .f32 0x00000000#32) (by decide : Batch.ReducesTo [0] Scalar0) (by decide))
    (constant (F := Ideal) Scalar0 .f32 0x41000000#32)

end Cert.Chamfer

end
-- ==== Proof.Algebra.lean ====
/-
  The pure mathematics behind the comparison of the two arrangements of the squared distance, and of the two ways of
  taking a minimum over 4096 points.

  1. For real entries, the five-term product of the augmented rows
         Σ_{d<3} s[d] · (−2 · t[d]) + 1 · |t|² + |s|² · 1
     and the three-sum arrangement (|s|² + |t|²) − 2 · ⟨s, t⟩ are the same real number: both are |s − t|².
     All entries being real, every product, sum and difference involved is the image of the corresponding real
     operation, so the identity is an identity of polynomials over ℝ.

  2. The minimum over the first 1024·k points, k = 0, …, 4, starts at +∞ (the minimum over no point), is lowered at
     each step by the minimum over the next 1024 points, and for k = 4 is the minimum over all 4096 points.
-/
import proofs.«125909_j25039659336371_2_alg».proof.Proof.Spec
import proofs.«125909_j25039659336371_2_alg».proof.Proof.LibFiniteEntries

noncomputable section

namespace Cert.Chamfer

open Idealize.ShloMosaic Idealize.ShloMosaic.ValueIdx

/-! ### The three constants -/

/-- The word 0xC0000000 denotes the real −2. -/
theorem negTwo_eq : negTwo = ((-2 : ℝ) : EReal) := by
  simp [negTwo, Ideal.ofBits, Ideal.ieee, -EReal.coe_mul]; norm_num

/-- The word 0x3F800000 denotes the real 1. -/
theorem one_eq : one = ((1 : ℝ) : EReal) := by
  simp [one, Ideal.ofBits, Ideal.ieee, -EReal.coe_mul]; norm_num

/-- The word 0x40000000 denotes the real 2. -/
theorem two_eq : two = ((2 : ℝ) : EReal) := by
  simp [two, Ideal.ofBits, Ideal.ieee, -EReal.coe_mul]; norm_num

/-! ### The two arrangements of |s − t|² agree on real entries -/

open Cert.LibFiniteEntries in
/-- On clouds with real entries the product of the augmented rows is (|s|² + |t|²) − 2⟨s, t⟩. -/
theorem distK_eq_distR (S T : Cloud.Idx → EReal) (hS : AllReal S) (hT : AllReal T) : distK S T = distR S T := by
  funext b i q
  choose s hs using hS
  choose t ht using hT
  unfold distK distR sqLen cross
  simp only [Fin.sum_univ_three, hs, ht, negTwo_eq, one_eq, two_eq]
  simp only [← EReal.coe_mul, ← EReal.coe_add, ← EReal.coe_sub]
  congr 1
  ring

/-! ### Minima over 1024 points at a time -/

/-- The minimum over no point is +∞. -/
theorem prefInf_zero (f : Fin 4096 → EReal) : prefInf f 0 = ⊤ := by
  unfold prefInf
  simp

/-- The first 1024·(n+1) points are the first 1024·n points together with the points 1024·n, …, 1024·n + 1023. -/
theorem prefInf_succ (f : Fin 4096 → EReal) (n : ℕ) (hn : n < 4) :
    prefInf f (n + 1) = min (prefInf f n) (tileInf f n hn) := by
  unfold prefInf tileInf
  apply le_antisymm
  · apply le_min
    · apply Finset.le_inf
      intro i hi
      apply Finset.inf_le
      simp only [Finset.mem_filter, Finset.mem_univ, true_and] at hi ⊢
      omega
    · apply Finset.le_inf
      intro r _
      apply Finset.inf_le
      simp only [Finset.mem_filter, Finset.mem_univ, true_and]
      have := r.isLt
      omega
  · apply Finset.le_inf
    intro i hi
    simp only [Finset.mem_filter, Finset.mem_univ, true_and] at hi
    by_cases h : i.val < 1024 * n
    · exact (min_le_left _ _).trans (Finset.inf_le (by simp [h]))
    · have hr : i.val - 1024 * n < 1024 := by omega
      have hi' : (⟨1024 * n + (⟨i.val - 1024 * n, hr⟩ : Fin 1024).val, by
          have := i.isLt; simp only; omega⟩ : Fin 4096) = i := by
        apply Fin.ext
        simp only
        omega
      refine (min_le_right _ _).trans ?_
      refine (Finset.inf_le (Finset.mem_univ (⟨i.val - 1024 * n, hr⟩ : Fin 1024))).trans ?_
      simp only [hi']
      exact le_refl _

/-- The first 4096 points are all the points. -/
theorem prefInf_four (f : Fin 4096 → EReal) : prefInf f 4 = Finset.univ.inf f := by
  unfold prefInf
  rw [Finset.filter_true_of_mem]
  intro i _
  have := i.isLt
  omega

/-- +∞ is neutral for the minimum. -/
theorem min_top_left' (x : EReal) : min ⊤ x = x := min_top_left x

end Cert.Chamfer

end
-- ==== Proof.KernelInvariant.lean ====
/-
  What the kernel's two output blocks and its carried scratch hold after each grid point, at the ideal values.
  The grid has 32 points: point n works on batch n / 4 and on the source tile n % 4 (source points
  1024·(n % 4) … 1024·(n % 4) + 1023).  Writing D for the distance table of the batch in the kernel's arrangement:
    the scratch holds the five augmented rows of the batch's target cloud;
    the block of nearest-target values holds, at r, the minimum over q of D at source point 1024·(n % 4) + r;
    the running minimum holds, at q, the minimum of D over the source points of tiles 0 … n % 4.
  By induction on the point: tile 0 starts the running minimum from +∞ and builds the rows, later tiles keep the rows
  and extend the minimum by one tile.
-/
import proofs.«125909_j25039659336371_2_alg».proof.Proof.Gen.KernelIdeal.Frame
import proofs.«125909_j25039659336371_2_alg».proof.Proof.KernelPieces
import proofs.«125909_j25039659336371_2_alg».proof.Proof.KernelPayloads
import proofs.«125909_j25039659336371_2_alg».proof.Proof.Spec
import proofs.«125909_j25039659336371_2_alg».proof.Proof.Algebra
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Inv

open Cert.KernelIdeal Cert.KernelIdeal.Gen Cert.KernelIdeal.Pieces Cert.KernelIdeal.Payloads Cert.Chamfer

variable (m : (ℓ : Loc nD τ sig) → Buf (Elt Ideal) ℓ)

/-- The source and target clouds as the region finds them. -/
abbrev srcs (c : Dev nD) : Cloud.Idx → EReal := m ((c : Thread nD τ).loc main_arg0)
abbrev tgts (c : Dev nD) : Cloud.Idx → EReal := m ((c : Thread nD τ).loc main_arg1)

/-- The batch a grid point works on, and the source point its tile's row r is. -/
def batchOf (n : ℕ) (hn : n < cfg0.N) : Fin 8 := ⟨n / 4, by have hN : cfg0.N = 32 := N_0; omega⟩
def srcPt (n : ℕ) (r : Fin 1024) : Fin 4096 := ⟨1024 * (n % 4) + r.val, by have := r.isLt; omega⟩

/-- The printed index maps, decided over the grid: block (n / 4, 0, n % 4) of the sources and of the nearest-target
    values, block (n / 4, 0, 0) of the targets and of the running minimum. -/
theorem idx_facts : ∀ t : Fin cfg0.N,
    win0_0.index t (0 : Fin 3) = t.val / 4 ∧ win0_0.index t (1 : Fin 3) = 0 ∧ win0_0.index t (2 : Fin 3) = t.val % 4
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = t.val % 4
    ∧ win0_3.index t (0 : Fin 3) = t.val / 4 ∧ win0_3.index t (1 : Fin 3) = 0 ∧ win0_3.index t (2 : Fin 3) = 0 :=
  (by decide +kernel : ∀ t : Fin grid0.N, _)

/-- The source block of a point: coordinate d of source point 1024·(n % 4) + r of batch n / 4. -/
theorem sblk_apply (c : Dev nD) (t : Fin cfg0.N) (d : Fin 3) (r : Fin 1024) :
    (iblk m c 0 t : Vec Ideal S1x3x1024 .f32) (ix3 (0 : Fin 1) d r)
      = srcs m c (ix3 (batchOf t.val t.isLt) d (srcPt t.val r)) := by
  obtain ⟨e0, e1, e2, -⟩ := idx_facts t
  unfold iblk
  rw [View.read_apply]
  show V m c main_arg0 _ = V m c main_arg0 _
  refine congrArg _ (funext fun a => Fin.ext ?_)
  match a with
  | ⟨0, _⟩ => show win0_0.index t (0 : Fin 3) * 1 + 1 * 0 = t.val / 4; omega
  | ⟨1, _⟩ => show win0_0.index t (1 : Fin 3) * 3 + 1 * d.val = d.val; omega
  | ⟨2, _⟩ => show win0_0.index t (2 : Fin 3) * 1024 + 1 * r.val = 1024 * (t.val % 4) + r.val; omega

/-- The whole target cloud of one batch as a [1, 3, 4096] block. -/
def tblk (T : Cloud.Idx → EReal) (b : Fin 8) : FVec Ideal S1x3x4096 .f32 := fun j => T (ix3 b (j 1) (j 2))

theorem tblk_apply (T : Cloud.Idx → EReal) (b : Fin 8) (u : Fin 1) (d : Fin 3) (q : Fin 4096) :
    tblk T b (ix3 u d q) = T (ix3 b d q) := rfl

/-- The target block of a point is the target cloud of its batch. -/
theorem tblk_eq (c : Dev nD) (t : Fin cfg0.N) :
    (iblk m c 1 t : Vec Ideal S1x3x4096 .f32) = tblk (tgts m c) (batchOf t.val t.isLt) := by
  obtain ⟨-, -, -, e0, e1, e2, -⟩ := idx_facts t
  funext j
  obtain ⟨u, d, q, rfl⟩ : ∃ (u : Fin 1) (d : Fin 3) (q : Fin 4096), j = ix3 u d q := ⟨j 0, j 1, j 2, eq_ix3 j⟩
  rw [tblk_apply]
  unfold iblk
  rw [View.read_apply]
  show V m c main_arg1 _ = V m c main_arg1 _
  refine congrArg _ (funext fun a => Fin.ext ?_)
  have hu : u.val = 0 := by omega
  match a with
  | ⟨0, _⟩ => show win0_1.index t (0 : Fin 3) * 1 + 1 * u.val = t.val / 4; omega
  | ⟨1, _⟩ => show win0_1.index t (1 : Fin 3) * 3 + 1 * d.val = d.val; omega
  | ⟨2, _⟩ => show win0_1.index t (2 : Fin 3) * 4096 + 1 * q.val = q.val; omega

/-- The product of a tile's augmented source rows with the augmented rows of its batch's targets IS the distance table
    in the kernel's arrangement. -/
theorem entry_eq (c : Dev nD) (t : Fin cfg0.N) (r : Fin 1024) (q : Fin 4096) :
    k0_pay3 (F := Ideal) (iblk m c 0 t) (k0_pay2 (F := Ideal) (tblk (tgts m c) (batchOf t.val t.isLt))) (ix3 (0 : Fin 1) r q)
      = distK (srcs m c) (tgts m c) (batchOf t.val t.isLt) (srcPt t.val r) q := by
  refine (pay3_apply (iblk m c 0 t) (k0_pay2 (F := Ideal) (tblk (tgts m c) (batchOf t.val t.isLt))) r q).trans ?_
  have a0 : k0_pay2 (F := Ideal) (tblk (tgts m c) (batchOf t.val t.isLt)) (ix3 (0 : Fin 1) (0 : Fin 5) q)
      = Ideal.ofBits .f32 0xC0000000#32 * (tblk (tgts m c) (batchOf t.val t.isLt)) (ix3 (0 : Fin 1) (0 : Fin 3) q) := pay2_lo (tblk (tgts m c) (batchOf t.val t.isLt)) (0 : Fin 3) q
  have a1 : k0_pay2 (F := Ideal) (tblk (tgts m c) (batchOf t.val t.isLt)) (ix3 (0 : Fin 1) (1 : Fin 5) q)
      = Ideal.ofBits .f32 0xC0000000#32 * (tblk (tgts m c) (batchOf t.val t.isLt)) (ix3 (0 : Fin 1) (1 : Fin 3) q) := pay2_lo (tblk (tgts m c) (batchOf t.val t.isLt)) (1 : Fin 3) q
  have a2 : k0_pay2 (F := Ideal) (tblk (tgts m c) (batchOf t.val t.isLt)) (ix3 (0 : Fin 1) (2 : Fin 5) q)
      = Ideal.ofBits .f32 0xC0000000#32 * (tblk (tgts m c) (batchOf t.val t.isLt)) (ix3 (0 : Fin 1) (2 : Fin 3) q) := pay2_lo (tblk (tgts m c) (batchOf t.val t.isLt)) (2 : Fin 3) q
  rw [a0, a1, a2, pay2_3 (tblk (tgts m c) (batchOf t.val t.isLt)) q, pay2_4 (tblk (tgts m c) (batchOf t.val t.isLt)) q]
  simp only [sblk_apply, tblk_apply]
  rfl

/-- The minimum over the target points, for row r of the tile. -/
theorem rowMin_eq (c : Dev nD) (t : Fin cfg0.N) (r : Fin 1024) :
    k0_pay4 (F := Ideal) (iblk m c 0 t) (k0_pay2 (F := Ideal) (tblk (tgts m c) (batchOf t.val t.isLt))) (ix3 (0 : Fin 1) (0 : Fin 1) r)
      = Finset.univ.inf fun q : Fin 4096 => distK (srcs m c) (tgts m c) (batchOf t.val t.isLt) (srcPt t.val r) q :=
  (pay4_apply (iblk m c 0 t) (k0_pay2 (F := Ideal) (tblk (tgts m c) (batchOf t.val t.isLt))) r).trans
    (congrArg Finset.univ.inf (funext fun q => entry_eq m c t r q))

/-- The running minimum after the tile: the previous value met with the minimum over the tile's source points. -/
theorem colMin_eq (c : Dev nD) (t : Fin cfg0.N) (prev : FVec Ideal S1x1x4096 .f32) (q : Fin 4096) :
    k0_pay5 (F := Ideal) (iblk m c 0 t) (k0_pay2 (F := Ideal) (tblk (tgts m c) (batchOf t.val t.isLt))) prev (ix3 (0 : Fin 1) (0 : Fin 1) q)
      = min (prev (ix3 (0 : Fin 1) (0 : Fin 1) q))
          (tileInf (fun i => distK (srcs m c) (tgts m c) (batchOf t.val t.isLt) i q) (t.val % 4) (Nat.mod_lt _ (by decide))) :=
  (pay5_apply (iblk m c 0 t) (k0_pay2 (F := Ideal) (tblk (tgts m c) (batchOf t.val t.isLt))) prev q).trans
    (congrArg (min _) (congrArg Finset.univ.inf (funext fun r => entry_eq m c t r q)))

/-- What the three carried values are after point n. -/
def Good (c : Dev nD) (n : ℕ) (hn : n < cfg0.N)
    (o : Vec Ideal S1x1x1024 .f32 × Vec Ideal S1x1x4096 .f32 × Vec Ideal S1x5x4096 .f32) : Prop :=
  o.2.2 = k0_pay2 (F := Ideal) (tblk (tgts m c) (batchOf n hn))
  ∧ (∀ q : Fin 4096, o.2.1 (ix3 (0 : Fin 1) (0 : Fin 1) q)
      = prefInf (fun i => distK (srcs m c) (tgts m c) (batchOf n hn) i q) (n % 4 + 1))
  ∧ (∀ r : Fin 1024, o.1 (ix3 (0 : Fin 1) (0 : Fin 1) r)
      = Finset.univ.inf fun q : Fin 4096 => distK (srcs m c) (tgts m c) (batchOf n hn) (srcPt n r) q)

/-- The three statements, for three values given one by one. -/
theorem good_mk (c : Dev nD) (n : ℕ) (hn : n < cfg0.N)
    (a : Vec Ideal S1x1x1024 .f32) (b : Vec Ideal S1x1x4096 .f32) (s : Vec Ideal S1x5x4096 .f32)
    (hs : s = k0_pay2 (F := Ideal) (tblk (tgts m c) (batchOf n hn)))
    (hb : ∀ q : Fin 4096, b (ix3 (0 : Fin 1) (0 : Fin 1) q)
      = prefInf (fun i => distK (srcs m c) (tgts m c) (batchOf n hn) i q) (n % 4 + 1))
    (ha : ∀ r : Fin 1024, a (ix3 (0 : Fin 1) (0 : Fin 1) r)
      = Finset.univ.inf fun q : Fin 4096 => distK (srcs m c) (tgts m c) (batchOf n hn) (srcPt n r) q) :
    Good m c n hn (a, b, s) := ⟨hs, hb, ha⟩

set_option maxHeartbeats 400000 in
/-- The first tile of a batch. -/
theorem good_A (c : Dev nD) (t : Fin cfg0.N) (h0 : t.val % 4 = 0) : Good m c t.val t.isLt (outsAt0 m c t.val t.isLt) := by
  rw [outsAt0_A m c t h0]
  refine good_mk m c t.val t.isLt _ _ _ ?_ (fun q => ?_) (fun r => ?_)
  · refine (sout_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t)).trans ?_
    rw [tblk_eq m c t]
  · refine (congrFun (out_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t))
      (ix3 (0 : Fin 1) (0 : Fin 1) q)).trans ?_
    rw [tblk_eq m c t]
    refine (colMin_eq m c t (k0_pay1 (F := Ideal)) q).trans ?_
    have hp : prefInf (fun i => distK (srcs m c) (tgts m c) (batchOf t.val t.isLt) i q) (t.val % 4) = ⊤ := by
      rw [h0]; exact prefInf_zero _
    rw [pay1_apply, prefInf_succ _ (t.val % 4) (Nat.mod_lt _ (by decide)), hp]
  · refine (congrFun (out_A_2 c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t))
      (ix3 (0 : Fin 1) (0 : Fin 1) r)).trans ?_
    rw [tblk_eq m c t]
    exact rowMin_eq m c t r

set_option maxHeartbeats 400000 in
/-- A later tile, given the point before. -/
theorem good_B (c : Dev nD) (t : Fin cfg0.N) (h0 : ¬t.val % 4 = 0)
    (ih : Good m c (t.val - 1) (Nat.lt_of_le_of_lt (Nat.sub_le _ _) t.isLt) (outsAt0 m c (t.val - 1) (Nat.lt_of_le_of_lt (Nat.sub_le _ _) t.isLt))) :
    Good m c t.val t.isLt (outsAt0 m c t.val t.isLt) := by
  have hN : cfg0.N = 32 := N_0
  have hb : batchOf (t.val - 1) (Nat.lt_of_le_of_lt (Nat.sub_le _ _) t.isLt) = batchOf t.val t.isLt :=
    Fin.ext (by show (t.val - 1) / 4 = t.val / 4; omega)
  have hk : (t.val - 1) % 4 + 1 = t.val % 4 := by omega
  obtain ⟨ihS, ihA, -⟩ := ih
  rw [hb] at ihS ihA
  rw [outsAt0_B m c t h0]
  refine good_mk m c t.val t.isLt _ _ _ ?_ (fun q => ?_) (fun r => ?_)
  · exact ihS
  · refine (congrFun (out_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t)
      (outsAt0 m c (t.val - 1) (Nat.lt_of_le_of_lt (Nat.sub_le _ _) t.isLt)).2.1 (outsAt0 m c (t.val - 1) (Nat.lt_of_le_of_lt (Nat.sub_le _ _) t.isLt)).2.2) (ix3 (0 : Fin 1) (0 : Fin 1) q)).trans ?_
    rw [ihS]
    refine (colMin_eq m c t (outsAt0 m c (t.val - 1) (Nat.lt_of_le_of_lt (Nat.sub_le _ _) t.isLt)).2.1 q).trans ?_
    rw [ihA q, hk]
    exact (prefInf_succ _ (t.val % 4) (Nat.mod_lt _ (by decide))).symm
  · refine (congrFun (out_B_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t)
      (outsAt0 m c (t.val - 1) (Nat.lt_of_le_of_lt (Nat.sub_le _ _) t.isLt)).2.1 (outsAt0 m c (t.val - 1) (Nat.lt_of_le_of_lt (Nat.sub_le _ _) t.isLt)).2.2) (ix3 (0 : Fin 1) (0 : Fin 1) r)).trans ?_
    rw [ihS]
    exact rowMin_eq m c t r

/-- After every point. -/
theorem good (c : Dev nD) : ∀ (n : ℕ) (hn : n < cfg0.N), Good m c n hn (outsAt0 m c n hn)
  | 0, hn => good_A m c ⟨0, hn⟩ rfl
  | n + 1, hn => by
    by_cases h0 : (n + 1) % 4 = 0
    · exact good_A m c ⟨n + 1, hn⟩ h0
    · exact good_B m c ⟨n + 1, hn⟩ h0 (good c n (Nat.lt_of_succ_lt hn))

end Cert.KernelIdeal.Inv

end
-- ==== Proof.KernelArrays.lean ====
/-
  The two result arrays of the region after the whole grid, at the ideal values.  The block of nearest-target values
  written back at point n is block (n / 4, 0, n % 4) of the array "minimum over target points q of D[b, i, q]"; the
  running minimum is written back after the last tile of each batch (n % 4 = 3), when it is the minimum over all 4096
  source points, as block (n / 4, 0, 0) of the array "minimum over source points i of D[b, i, q]".  The blocks tile
  both arrays, so the arrays end holding those two functions.
-/
import proofs.«125909_j25039659336371_2_alg».proof.Proof.KernelInvariant

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.KernelIdeal.Inv Cert.Chamfer

variable (m : (ℓ : Loc nD τ sig) → Buf (Elt Ideal) ℓ)

/-- Per batch and source point, the least distance to a target point, as an [8, 1, 4096] array. -/
def nearT (c : Dev nD) : Buf (Elt Ideal) ((c : Thread nD τ).loc main_v0_0) :=
  fun j : S8x1x4096.Idx => (Finset.univ.inf (fun q : Fin 4096 => distK (srcs m c) (tgts m c) (j 0) (j 2) q) : EReal)

/-- Per batch and target point, the least distance to a source point, as an [8, 1, 4096] array. -/
def nearS (c : Dev nD) : Buf (Elt Ideal) ((c : Thread nD τ).loc main_v0_1) :=
  fun j : S8x1x4096.Idx => (Finset.univ.inf (fun i : Fin 4096 => distK (srcs m c) (tgts m c) (j 0) i (j 2)) : EReal)

/-- What point t writes back of the nearest-target values is its block of `nearT`. -/
theorem flushed2_eq (c : Dev nD) (t : Fin cfg0.N) :
    (dats m 0 c).flushed 2 t = ((cfg0.win 2).blk t).view.read (Elt Ideal) (nearT m c) := by
  show (cfg0.win 2).cut (grid0.coords t) ((dats m 0 c).after 2 t) = _
  rw [after0_2]
  obtain ⟨-, -, -, -, -, -, e0, e1, e2, -⟩ := idx_facts t
  funext y
  obtain ⟨u, v, r, rfl⟩ : ∃ (u : Fin 1) (v : Fin 1) (r : Fin 1024), y = ix3 u v r := ⟨y 0, y 1, y 2, eq_ix3 y⟩
  obtain rfl : u = 0 := Subsingleton.elim _ _
  obtain rfl : v = 0 := Subsingleton.elim _ _
  have hemb : ((cfg0.win 2).blk t).view.emb (ix3 (0 : Fin 1) (0 : Fin 1) r)
      = (ix3 (batchOf t.val t.isLt) (0 : Fin 1) (srcPt t.val r) : S8x1x4096.Idx) :=
    funext fun a => Fin.ext (by
      match a with
      | ⟨0, _⟩ => show win0_2.index t (0 : Fin 3) * 1 + 1 * 0 = t.val / 4; omega
      | ⟨1, _⟩ => show win0_2.index t (1 : Fin 3) * 1 + 1 * 0 = 0; omega
      | ⟨2, _⟩ => show win0_2.index t (2 : Fin 3) * 1024 + 1 * r.val = 1024 * (t.val % 4) + r.val; omega)
  rw [View.read_apply, hemb]
  exact (good m c t.val t.isLt).2.2 r

/-- What the last tile of a batch writes back of the running minimum is its block of `nearS`. -/
theorem flushed3_eq (c : Dev nD) (t : Fin cfg0.N) (hf : (cfg0.win 3).flush t = true) :
    (dats m 0 c).flushed 3 t = ((cfg0.win 3).blk t).view.read (Elt Ideal) (nearS m c) := by
  have h3 : t.val % 4 = 3 := (flush0_3 t).mp hf
  show (cfg0.win 3).cut (grid0.coords t) ((dats m 0 c).after 3 t) = _
  rw [after0_3]
  obtain ⟨-, -, -, -, -, -, -, -, -, e0, e1, e2⟩ := idx_facts t
  funext y
  obtain ⟨u, v, q, rfl⟩ : ∃ (u : Fin 1) (v : Fin 1) (q : Fin 4096), y = ix3 u v q := ⟨y 0, y 1, y 2, eq_ix3 y⟩
  obtain rfl : u = 0 := Subsingleton.elim _ _
  obtain rfl : v = 0 := Subsingleton.elim _ _
  have hemb : ((cfg0.win 3).blk t).view.emb (ix3 (0 : Fin 1) (0 : Fin 1) q)
      = (ix3 (batchOf t.val t.isLt) (0 : Fin 1) q : S8x1x4096.Idx) :=
    funext fun a => Fin.ext (by
      match a with
      | ⟨0, _⟩ => show win0_3.index t (0 : Fin 3) * 1 + 1 * 0 = t.val / 4; omega
      | ⟨1, _⟩ => show win0_3.index t (1 : Fin 3) * 1 + 1 * 0 = 0; omega
      | ⟨2, _⟩ => show win0_3.index t (2 : Fin 3) * 4096 + 1 * q.val = q.val; omega)
  rw [View.read_apply, hemb]
  refine ((good m c t.val t.isLt).2.1 q).trans ?_
  rw [h3]
  exact prefInf_four _

/-- An index of the array is in point t's block iff each coordinate is in the block's range on its axis. -/
theorem mem_blk2 (t : Fin cfg0.N) (i : S8x1x4096.Idx) :
    i ∈ ((cfg0.win 2).blk t).view.set ↔ ∀ a : Fin 3, win0_2.index t a * S1x1x1024.size a ≤ (i a).val
      ∧ (i a).val < win0_2.index t a * S1x1x1024.size a + S1x1x1024.size a := by
  show i ∈ ((View.whole main_v0_0).slice (win0_2.rect t)).set ↔ _
  rw [View.set_slice_whole, Rect.mem_set_unit]
  exact Iff.rfl

theorem mem_blk3 (t : Fin cfg0.N) (i : S8x1x4096.Idx) :
    i ∈ ((cfg0.win 3).blk t).view.set ↔ ∀ a : Fin 3, win0_3.index t a * S1x1x4096.size a ≤ (i a).val
      ∧ (i a).val < win0_3.index t a * S1x1x4096.size a + S1x1x4096.size a := by
  show i ∈ ((View.whole main_v0_1).slice (win0_3.rect t)).set ↔ _
  rw [View.set_slice_whole, Rect.mem_set_unit]
  exact Iff.rfl

/-- Every entry (b, 0, i) of the nearest-target array is in the block of point 4b + i / 1024. -/
theorem cover2 (i : S8x1x4096.Idx) :
    ∃ t : Fin cfg0.N, (cfg0.win 2).flush t = true ∧ i ∈ ((cfg0.win 2).blk t).view.set := by
  have hN : cfg0.N = 32 := N_0
  have h0 : (i 0).val < 8 := (i 0).isLt
  have h1 : (i 1).val < 1 := (i 1).isLt
  have h2 : (i 2).val < 4096 := (i 2).isLt
  obtain ⟨t, ht⟩ : ∃ t : Fin cfg0.N, t.val = 4 * (i 0).val + (i 2).val / 1024 :=
    ⟨⟨4 * (i 0).val + (i 2).val / 1024, by omega⟩, rfl⟩
  obtain ⟨-, -, -, -, -, -, e0, e1, e2, -⟩ := idx_facts t
  refine ⟨t, flush0_2 t, ?_⟩
  rw [mem_blk2]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1 ≤ (i 1).val ∧ (i 1).val < win0_2.index t (1 : Fin 3) * 1 + 1
    omega
  | ⟨2, _⟩ =>
    show win0_2.index t (2 : Fin 3) * 1024 ≤ (i 2).val ∧ (i 2).val < win0_2.index t (2 : Fin 3) * 1024 + 1024
    omega

/-- Every entry (b, 0, q) of the nearest-source array is in the block of point 4b + 3, which is written back. -/
theorem cover3 (i : S8x1x4096.Idx) :
    ∃ t : Fin cfg0.N, (cfg0.win 3).flush t = true ∧ i ∈ ((cfg0.win 3).blk t).view.set := by
  have hN : cfg0.N = 32 := N_0
  have h0 : (i 0).val < 8 := (i 0).isLt
  have h1 : (i 1).val < 1 := (i 1).isLt
  have h2 : (i 2).val < 4096 := (i 2).isLt
  obtain ⟨t, ht⟩ : ∃ t : Fin cfg0.N, t.val = 4 * (i 0).val + 3 := ⟨⟨4 * (i 0).val + 3, by omega⟩, rfl⟩
  obtain ⟨-, -, -, -, -, -, -, -, -, e0, e1, e2⟩ := idx_facts t
  refine ⟨t, (flush0_3 t).mpr (by omega), ?_⟩
  rw [mem_blk3]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 1 ≤ (i 1).val ∧ (i 1).val < win0_3.index t (1 : Fin 3) * 1 + 1
    omega
  | ⟨2, _⟩ =>
    show win0_3.index t (2 : Fin 3) * 4096 ≤ (i 2).val ∧ (i 2).val < win0_3.index t (2 : Fin 3) * 4096 + 4096
    omega

/-- The two result arrays after the run. -/
theorem final2 (c : Dev nD) : (dats m 0 c).arrAt 2 cfg0.N = nearT m c :=
  (dats m 0 c).arrAt_eq_of_cover 2 (nearT m c) (fun t _ => flushed2_eq m c t) cover2

theorem final3 (c : Dev nD) : (dats m 0 c).arrAt 3 cfg0.N = nearS m c :=
  (dats m 0 c).arrAt_eq_of_cover 3 (nearS m c) (fun t hf => flushed3_eq m c t hf) cover3

end Cert.KernelIdeal.Arrays

end
-- ==== Proof.KernelRun.lean ====
/-
  The kernel program's run at the ideal values: the region leaves the two arrays of minima, and the last lines of the
  program — the same in both programs — turn them into the result.
-/
import proofs.«125909_j25039659336371_2_alg».proof.Proof.KernelArrays
import Idealize.ShloMosaic.Lib.StableHlo.Run

noncomputable section

open Idealize.ShloMosaic Idealize.ShloMosaic.TcCoe Idealize.SL.Sem Idealize.ShloMosaic.ValueIdx
open Idealize.ShloMosaic.StableHlo
open Idealize.ShloMosaic.Pipeline (Dat)

namespace Cert.KernelIdeal.Value

open Cert.KernelIdeal Cert.KernelIdeal.Gen Cert.KernelIdeal.Inv Cert.KernelIdeal.Arrays Cert.Chamfer

variable (m : (ℓ : Loc nD τ sig) → Buf (Elt Ideal) ℓ) (ρ : Dev nD → PrngReg)

/-- An [8, 1, 4096] array seen as [8, 4096] reads, at (b, q), the array at (b, 0, q). -/
theorem squeeze_apply {α : Type} (x : S8x1x4096.Idx → α) (h : S8x1x4096.ShapeCasts S8x4096) (b : Fin 8) (q : Fin 4096) :
    shapeCast S8x4096 x h (ix2 b q) = x (ix3 b (0 : Fin 1) q) :=
  shapeCast_apply x h _ _ (by
    rw [Shape.rowMajor_val_three, Shape.rowMajor_val_two]
    show (b.val * 1 + 0) * 4096 + q.val = b.val * 4096 + q.val
    omega)

theorem squeeze_nearS (c : Dev nD) :
    (fun i => shapeCast S8x4096 (nearS m c) shapeCasts_S8x1x4096_S8x4096 i)
      = nearestSrc (distK (srcs m c) (tgts m c)) := by
  funext j
  obtain ⟨b, q, rfl⟩ : ∃ (b : Fin 8) (q : Fin 4096), j = ix2 b q := ⟨j 0, j 1, eq_ix2 j⟩
  exact squeeze_apply _ _ b q

theorem squeeze_nearT (c : Dev nD) :
    (fun i => shapeCast S8x4096 (nearT m c) shapeCasts_S8x1x4096_S8x4096 i)
      = nearestTgt (distK (srcs m c) (tgts m c)) := by
  funext j
  obtain ⟨b, q, rfl⟩ : ∃ (b : Fin 8) (q : Fin 4096), j = ix2 b q := ⟨j 0, j 1, eq_ix2 j⟩
  exact squeeze_apply _ _ b q

/-- The program's result after the lines that follow the region. -/
theorem tail_eq (c : Dev nD) :
    Pipeline.afterTail₀ cfgs (dats m) 0 (V0 m) [hostOps1] c main_v16
      = tail (nearestSrc (distK (srcs m c) (tgts m c))) (nearestTgt (distK (srcs m c) (tgts m c))) := by
  unfold Pipeline.afterTail₀
  show StableHlo.after hostOps1 _ (Proc.devRef .tc main_v16) = _
  after_results
  have e3 : Pipeline.withArrays (cfgs 0).spec c (V0 m c) (fun w => (dats m 0 c).arrAt w (cfgs 0).N)
      (Proc.devRef .tc main_v0_1) = nearS m c :=
    (Pipeline.withArrays_arr spec0 launch0.win.arr_inj c _ _ 3).trans (final3 m c)
  have e2 : Pipeline.withArrays (cfgs 0).spec c (V0 m c) (fun w => (dats m 0 c).arrAt w (cfgs 0).N)
      (Proc.devRef .tc main_v0_0) = nearT m c :=
    (Pipeline.withArrays_arr spec0 launch0.win.arr_inj c _ _ 2).trans (final2 m c)
  rw [e3, e2]
  show tail (fun i => shapeCast S8x4096 (nearS m c) shapeCasts_S8x1x4096_S8x4096 i)
    (fun i => shapeCast S8x4096 (nearT m c) shapeCasts_S8x1x4096_S8x4096 i) = _
  rw [squeeze_nearS, squeeze_nearT]

/-- The run, read: the result, and the two argument arrays unchanged. -/
theorem run : θ_run defs (onTc (τ := τ) (main (F := Ideal))) ⟨m, fun _ => 0, ρ⟩ fun r => ∀ c : Dev nD,
      r.2.mem ((c : Thread nD τ).loc main_v16)
        = tail (nearestSrc (distK (srcs m c) (tgts m c))) (nearestTgt (distK (srcs m c) (tgts m c)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v16 (Pipeline.mem_restRefs_of main_v16 rfl (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Value

end
-- ==== Proof.RefRun.lean ====
/-
  The reference program's run, read back as a function of its two arguments.

  The program is a straight line of 43 array operations.  Its value splits at the table of squared distances
  D[b, i, q] = (|s_i|² + |t_q|²) − 2·⟨s_i, t_q⟩ (operation %14, `dist`): the two families of minima of D — over the
  source points i for each target point q (%15, `minOverSrc`) and over the target points q for each source point i
  (%16, `minOverTgt`) — are all that the remaining operations read, and those remaining operations are the function
  `Cert.Chamfer.tail` of the two families.  `run` states that every weakly fair execution from any memory with zero
  counters terminates with the result buffer holding that value and the two arguments unchanged.
-/
import proofs.«125909_j25039659336371_2_alg».proof.Proof.Gen.ReferenceIdeal
import Idealize.ShloMosaic.Lib.StableHlo.Run
import proofs.«125909_j25039659336371_2_alg».proof.Proof.Spec

noncomputable section

namespace Cert.RefSide

open Cert.ReferenceIdeal Cert.ReferenceIdeal.Gen Idealize.ShloMosaic Idealize.ShloMosaic.TcCoe Idealize.SL.Sem Idealize.ShloMosaic.StableHlo

/-- The table of squared distances (operation %14) as a function of the two clouds x0 (sources) and x1 (targets),
    both [batch, coordinate, point]: the clouds are transposed to [batch, point, coordinate], the squared lengths are
    summed over the coordinate and spread along the other cloud's point axis, and twice the batched product of the
    transposed clouds is subtracted from their sum. -/
def dist (x0 x1 : (⟨S8x3x4096, .f32⟩ : BufTy).Contents (Elt Ideal)) : (⟨S8x4096x4096, .f32⟩ : BufTy).Contents (Elt Ideal) :=
  subf (F := Ideal) (φ := .f32)
    (addf (F := Ideal) (φ := .f32)
      (broadcastInDim S8x4096x4096 ![0, 1, 2] bcast_S8x4096x1_S8x4096x4096_0_1_2
        (broadcastInDim S8x4096x1 ![0, 1] bcast_S8x4096_S8x4096x1_0_1
          (Host.reduceAdd (F := Ideal) (φ := .f32) (mulf (F := Ideal) (φ := .f32) (transpose S8x4096x3 [0, 2, 1] (x0 : FVec Ideal S8x3x4096 .f32) transposes_S8x3x4096_S8x4096x3_0_2_1 : FVec Ideal S8x4096x3 .f32) (transpose S8x4096x3 [0, 2, 1] (x0 : FVec Ideal S8x3x4096 .f32) transposes_S8x3x4096_S8x4096x3_0_2_1 : FVec Ideal S8x4096x3 .f32)) (constant (F := Ideal) S_ .f32 0x00000000#32) reducesTo_S8x4096x3_S8x4096_d2 h_S_ : FVec Ideal S8x4096 .f32)))
      (broadcastInDim S8x4096x4096 ![0, 1, 2] bcast_S8x1x4096_S8x4096x4096_0_1_2
        (broadcastInDim S8x1x4096 ![0, 2] bcast_S8x4096_S8x1x4096_0_2
          (Host.reduceAdd (F := Ideal) (φ := .f32) (mulf (F := Ideal) (φ := .f32) (transpose S8x4096x3 [0, 2, 1] (x1 : FVec Ideal S8x3x4096 .f32) transposes_S8x3x4096_S8x4096x3_0_2_1 : FVec Ideal S8x4096x3 .f32) (transpose S8x4096x3 [0, 2, 1] (x1 : FVec Ideal S8x3x4096 .f32) transposes_S8x3x4096_S8x4096x3_0_2_1 : FVec Ideal S8x4096x3 .f32)) (constant (F := Ideal) S_ .f32 0x00000000#32) reducesTo_S8x4096x3_S8x4096_d2 h_S_ : FVec Ideal S8x4096 .f32))))
    (mulf (F := Ideal) (φ := .f32) (broadcastInDim S8x4096x4096 ![] bcast_S_S8x4096x4096 (constant (F := Ideal) S_ .f32 0x40000000#32))
      (Host.dotGeneral (F := Ideal) (φ₁ := .f32) (φ₂ := .f32) dot_S8x4096x3_S8x4096x3_S8x4096x4096_2_2_1_1_0_0 none (transpose S8x4096x3 [0, 2, 1] (x0 : FVec Ideal S8x3x4096 .f32) transposes_S8x3x4096_S8x4096x3_0_2_1 : FVec Ideal S8x4096x3 .f32) (transpose S8x4096x3 [0, 2, 1] (x1 : FVec Ideal S8x3x4096 .f32) transposes_S8x3x4096_S8x4096x3_0_2_1 : FVec Ideal S8x4096x3 .f32)))

/-- For each batch and target point, the minimum of the distance table over the source points (operation %15),
    folded from +∞. -/
def minOverSrc (x0 x1 : (⟨S8x3x4096, .f32⟩ : BufTy).Contents (Elt Ideal)) : (⟨S8x4096, .f32⟩ : BufTy).Contents (Elt Ideal) :=
  Host.reduce (α := Ideal .f32) (FloatOps.minimumf (F := Ideal) (φ := .f32)) (dist x0 x1) (constant (F := Ideal) S_ .f32 0x7F800000#32) reducesTo_S8x4096x4096_S8x4096_d1 h_S_

/-- For each batch and source point, the minimum of the distance table over the target points (operation %16),
    folded from +∞. -/
def minOverTgt (x0 x1 : (⟨S8x3x4096, .f32⟩ : BufTy).Contents (Elt Ideal)) : (⟨S8x4096, .f32⟩ : BufTy).Contents (Elt Ideal) :=
  Host.reduce (α := Ideal .f32) (FloatOps.minimumf (F := Ideal) (φ := .f32)) (dist x0 x1) (constant (F := Ideal) S_ .f32 0x7F800000#32) reducesTo_S8x4096x4096_S8x4096_d2 h_S_

section Program
variable {F : FTy → Type} [FloatOps F]

/-- The program's 43 operations, in order. -/
abbrev ops : List (HloOp τ sig (Elt F)) :=
  [ unary main_arg0 main_v0 ((transpose S8x4096x3 [0, 2, 1] · transposes_S8x3x4096_S8x4096x3_0_2_1) : (⟨S8x3x4096, .f32⟩ : BufTy).Contents (Elt F) → (⟨S8x4096x3, .f32⟩ : BufTy).Contents (Elt F)),
    unary main_arg1 main_v1 ((transpose S8x4096x3 [0, 2, 1] · transposes_S8x3x4096_S8x4096x3_0_2_1) : (⟨S8x3x4096, .f32⟩ : BufTy).Contents (Elt F) → (⟨S8x4096x3, .f32⟩ : BufTy).Contents (Elt F)),
    binary main_v0 main_v0 main_v2 (mulf : (⟨S8x4096x3, .f32⟩ : BufTy).Contents (Elt F) → (⟨S8x4096x3, .f32⟩ : BufTy).Contents (Elt F) → (⟨S8x4096x3, .f32⟩ : BufTy).Contents (Elt F)),
    nullary main_cst (constant S_ .f32 0x00000000#32),
    binary main_v2 main_cst main_v3 ((fun x v => Host.reduceAdd x v reducesTo_S8x4096x3_S8x4096_d2 h_S_) : (⟨S8x4096x3, .f32⟩ : BufTy).Contents (Elt F) → (⟨S_, .f32⟩ : BufTy).Contents (Elt F) → (⟨S8x4096, .f32⟩ : BufTy).Contents (Elt F)),
    binary main_v1 main_v1 main_v4 (mulf : (⟨S8x4096x3, .f32⟩ : BufTy).Contents (Elt F) → (⟨S8x4096x3, .f32⟩ : BufTy).Contents (Elt F) → (⟨S8x4096x3, .f32⟩ : BufTy).Contents (Elt F)),
    nullary main_cst_0 (constant S_ .f32 0x00000000#32),
    binary main_v4 main_cst_0 main_v5 ((fun x v => Host.reduceAdd x v reducesTo_S8x4096x3_S8x4096_d2 h_S_) : (⟨S8x4096x3, .f32⟩ : BufTy).Contents (Elt F) → (⟨S_, .f32⟩ : BufTy).Contents (Elt F) → (⟨S8x4096, .f32⟩ : BufTy).Contents (Elt F)),
    binary main_v0 main_v1 main_v6 ((fun l r => Host.dotGeneral dot_S8x4096x3_S8x4096x3_S8x4096x4096_2_2_1_1_0_0 none l r) : (⟨S8x4096x3, .f32⟩ : BufTy).Contents (Elt F) → (⟨S8x4096x3, .f32⟩ : BufTy).Contents (Elt F) → (⟨S8x4096x4096, .f32⟩ : BufTy).Contents (Elt F)),
    unary main_v3 main_v7 (broadcastInDim S8x4096x1 ![0, 1] bcast_S8x4096_S8x4096x1_0_1 : (⟨S8x4096, .f32⟩ : BufTy).Contents (Elt F) → (⟨S8x4096x1, .f32⟩ : BufTy).Contents (Elt F)),
    unary main_v5 main_v8 (broadcastInDim S8x1x4096 ![0, 2] bcast_S8x4096_S8x1x4096_0_2 : (⟨S8x4096, .f32⟩ : BufTy).Contents (Elt F) → (⟨S8x1x4096, .f32⟩ : BufTy).Contents (Elt F)),
    unary main_v7 main_v9 (broadcastInDim S8x4096x4096 ![0, 1, 2] bcast_S8x4096x1_S8x4096x4096_0_1_2 : (⟨S8x4096x1, .f32⟩ : BufTy).Contents (Elt F) → (⟨S8x4096x4096, .f32⟩ : BufTy).Contents (Elt F)),
    unary main_v8 main_v10 (broadcastInDim S8x4096x4096 ![0, 1, 2] bcast_S8x1x4096_S8x4096x4096_0_1_2 : (⟨S8x1x4096, .f32⟩ : BufTy).Contents (Elt F) → (⟨S8x4096x4096, .f32⟩ : BufTy).Contents (Elt F)),
    binary main_v9 main_v10 main_v11 (addf : (⟨S8x4096x4096, .f32⟩ : BufTy).Contents (Elt F) → (⟨S8x4096x4096, .f32⟩ : BufTy).Contents (Elt F) → (⟨S8x4096x4096, .f32⟩ : BufTy).Contents (Elt F)),
    nullary main_cst_1 (constant S_ .f32 0x40000000#32),
    unary main_cst_1 main_v12 (broadcastInDim S8x4096x4096 ![] bcast_S_S8x4096x4096 : (⟨S_, .f32⟩ : BufTy).Contents (Elt F) → (⟨S8x4096x4096, .f32⟩ : BufTy).Contents (Elt F)),
    binary main_v12 main_v6 main_v13 (mulf : (⟨S8x4096x4096, .f32⟩ : BufTy).Contents (Elt F) → (⟨S8x4096x4096, .f32⟩ : BufTy).Contents (Elt F) → (⟨S8x4096x4096, .f32⟩ : BufTy).Contents (Elt F)),
    binary main_v11 main_v13 main_v14 (subf : (⟨S8x4096x4096, .f32⟩ : BufTy).Contents (Elt F) → (⟨S8x4096x4096, .f32⟩ : BufTy).Contents (Elt F) → (⟨S8x4096x4096, .f32⟩ : BufTy).Contents (Elt F)),
    nullary main_cst_2 (constant S_ .f32 0x7F800000#32),
    binary main_v14 main_cst_2 main_v15 ((fun x v => Host.reduce FloatOps.minimumf x v reducesTo_S8x4096x4096_S8x4096_d1 h_S_) : (⟨S8x4096x4096, .f32⟩ : BufTy).Contents (Elt F) → (⟨S_, .f32⟩ : BufTy).Contents (Elt F) → (⟨S8x4096, .f32⟩ : BufTy).Contents (Elt F)),
    nullary main_cst_3 (constant S_ .f32 0x7F800000#32),
    binary main_v14 main_cst_3 main_v16 ((fun x v => Host.reduce FloatOps.minimumf x v reducesTo_S8x4096x4096_S8x4096_d2 h_S_) : (⟨S8x4096x4096, .f32⟩ : BufTy).Contents (Elt F) → (⟨S_, .f32⟩ : BufTy).Contents (Elt F) → (⟨S8x4096, .f32⟩ : BufTy).Contents (Elt F)),
    unary main_v15 main_v17 (broadcastInDim S8x4096x1 ![0, 1] bcast_S8x4096_S8x4096x1_0_1 : (⟨S8x4096, .f32⟩ : BufTy).Contents (Elt F) → (⟨S8x4096x1, .f32⟩ : BufTy).Contents (Elt F)),
    unary main_v16 main_v18 (broadcastInDim S8x4096x1 ![0, 1] bcast_S8x4096_S8x4096x1_0_1 : (⟨S8x4096, .f32⟩ : BufTy).Contents (Elt F) → (⟨S8x4096x1, .f32⟩ : BufTy).Contents (Elt F)),
    binary main_v17 main_v18 main_v19 ((fun a b => concatenate S8x4096x2 2 [⟨S8x4096x1, a⟩, ⟨S8x4096x1, b⟩] concatenates_S8x4096x1_S8x4096x1_S8x4096x2_d2) : (⟨S8x4096x1, .f32⟩ : BufTy).Contents (Elt F) → (⟨S8x4096x1, .f32⟩ : BufTy).Contents (Elt F) → (⟨S8x4096x2, .f32⟩ : BufTy).Contents (Elt F)),
    nullary main_cst_4 (constant S_ .f32 0x3F800000#32),
    unary main_cst_4 main_v20 (broadcastInDim S8x4096x2 ![] bcast_S_S8x4096x2 : (⟨S_, .f32⟩ : BufTy).Contents (Elt F) → (⟨S8x4096x2, .f32⟩ : BufTy).Contents (Elt F)),
    binary main_v20 main_v19 main_v21 (mulf : (⟨S8x4096x2, .f32⟩ : BufTy).Contents (Elt F) → (⟨S8x4096x2, .f32⟩ : BufTy).Contents (Elt F) → (⟨S8x4096x2, .f32⟩ : BufTy).Contents (Elt F)),
    nullary main_cst_5 (constant S_ .f32 0x3F800000#32),
    unary main_cst_5 main_v22 (broadcastInDim S8x4096x2 ![] bcast_S_S8x4096x2 : (⟨S_, .f32⟩ : BufTy).Contents (Elt F) → (⟨S8x4096x2, .f32⟩ : BufTy).Contents (Elt F)),
    binary main_v19 main_v22 main_v23 (addf : (⟨S8x4096x2, .f32⟩ : BufTy).Contents (Elt F) → (⟨S8x4096x2, .f32⟩ : BufTy).Contents (Elt F) → (⟨S8x4096x2, .f32⟩ : BufTy).Contents (Elt F)),
    binary main_v21 main_v23 main_v24 (Host.divf : (⟨S8x4096x2, .f32⟩ : BufTy).Contents (Elt F) → (⟨S8x4096x2, .f32⟩ : BufTy).Contents (Elt F) → (⟨S8x4096x2, .f32⟩ : BufTy).Contents (Elt F)),
    nullary main_cst_6 (constant S_ .f32 0x00000000#32),
    binary main_v24 main_cst_6 main_v25 ((fun x v => Host.reduceAdd x v reducesTo_S8x4096x2_S8x4096_d2 h_S_) : (⟨S8x4096x2, .f32⟩ : BufTy).Contents (Elt F) → (⟨S_, .f32⟩ : BufTy).Contents (Elt F) → (⟨S8x4096, .f32⟩ : BufTy).Contents (Elt F)),
    nullary main_cst_7 (constant S_ .f32 0x00000000#32),
    binary main_v25 main_cst_7 main_v26 ((fun x v => Host.reduceAdd x v reducesTo_S8x4096_S8_d1 h_S_) : (⟨S8x4096, .f32⟩ : BufTy).Contents (Elt F) → (⟨S_, .f32⟩ : BufTy).Contents (Elt F) → (⟨S8, .f32⟩ : BufTy).Contents (Elt F)),
    nullary main_cst_8 (constant S_ .f32 0x45800000#32),
    unary main_cst_8 main_v27 (broadcastInDim S8 ![] bcast_S_S8 : (⟨S_, .f32⟩ : BufTy).Contents (Elt F) → (⟨S8, .f32⟩ : BufTy).Contents (Elt F)),
    binary main_v26 main_v27 main_v28 (Host.divf : (⟨S8, .f32⟩ : BufTy).Contents (Elt F) → (⟨S8, .f32⟩ : BufTy).Contents (Elt F) → (⟨S8, .f32⟩ : BufTy).Contents (Elt F)),
    nullary main_cst_9 (constant S_ .f32 0x00000000#32),
    binary main_v28 main_cst_9 main_v29 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_10 (constant S_ .f32 0x41000000#32),
    binary main_v29 main_cst_10 main_v30 (Host.divf : (⟨S_, .f32⟩ : BufTy).Contents (Elt F) → (⟨S_, .f32⟩ : BufTy).Contents (Elt F) → (⟨S_, .f32⟩ : BufTy).Contents (Elt F)) ]

set_option maxRecDepth 65536 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 65536 in
theorem ops_sub : (ops : List (HloOp τ sig (Elt F))).Forall fun op => op.bufs ⊆ tcRefs τ sig :=
  ⟨unary_bufs_sub .., unary_bufs_sub .., binary_bufs_sub .., nullary_bufs_sub .., binary_bufs_sub .., binary_bufs_sub .., nullary_bufs_sub .., binary_bufs_sub .., binary_bufs_sub .., unary_bufs_sub .., unary_bufs_sub .., unary_bufs_sub .., unary_bufs_sub .., binary_bufs_sub .., nullary_bufs_sub .., unary_bufs_sub .., binary_bufs_sub .., binary_bufs_sub .., nullary_bufs_sub .., binary_bufs_sub .., nullary_bufs_sub .., binary_bufs_sub .., unary_bufs_sub .., unary_bufs_sub .., binary_bufs_sub .., nullary_bufs_sub .., unary_bufs_sub .., binary_bufs_sub .., nullary_bufs_sub .., unary_bufs_sub .., binary_bufs_sub .., binary_bufs_sub .., nullary_bufs_sub .., binary_bufs_sub .., nullary_bufs_sub .., binary_bufs_sub .., nullary_bufs_sub .., unary_bufs_sub .., binary_bufs_sub .., nullary_bufs_sub .., binary_bufs_sub .., nullary_bufs_sub .., binary_bufs_sub ..⟩

end Program

/-- What the result buffer holds once the 43 operations have run from contents `V`: the common tail of the two
    families of minima of the distance table of the two arguments. -/
theorem after_out (V : Valuation τ sig (Elt Ideal)) :
    after (ops (F := Ideal)) V (Proc.devRef .tc main_v30)
      = Cert.Chamfer.tail (minOverSrc (V (Proc.devRef .tc main_arg0)) (V (Proc.devRef .tc main_arg1)))
          (minOverTgt (V (Proc.devRef .tc main_arg0)) (V (Proc.devRef .tc main_arg1))) := by
  after_results_simp
  -- the two operands of the concatenation are components of dependent pairs: their contents are read back
  -- one operation at a time
  repeat (first
    | rw [nullary_result] | rw [unary_result] | rw [binary_result]
    | (rw [nullary_result_ne]; rotate_left; decide)
    | (rw [unary_result_ne]; rotate_left; decide)
    | (rw [binary_result_ne]; rotate_left; decide))
  rfl

/-- No operation writes the first argument. -/
theorem after_arg0 (V : Valuation τ sig (Elt Ideal)) :
    after (ops (F := Ideal)) V (Proc.devRef .tc main_arg0) = V (Proc.devRef .tc main_arg0) := by
  after_results_simp

/-- No operation writes the second argument. -/
theorem after_arg1 (V : Valuation τ sig (Elt Ideal)) :
    after (ops (F := Ideal)) V (Proc.devRef .tc main_arg1) = V (Proc.devRef .tc main_arg1) := by
  after_results_simp

/-- From any memory with zero counters every weakly fair execution of the reference program terminates, with the result
    buffer at the common tail of the two families of minima of the arguments' distance table and the arguments
    unchanged. -/
theorem run (m : (ℓ : Loc nD τ sig) → Buf (Elt Ideal) ℓ) (ρ : Dev nD → PrngReg) :
    θ_run Cert.ReferenceIdeal.defs (onTc (τ := τ) (Cert.ReferenceIdeal.main (F := Ideal))) ⟨m, fun _ => 0, ρ⟩ fun r => ∀ c : Dev nD,
      r.2.mem ((c.tc : Thread nD τ).loc main_v30)
          = Cert.Chamfer.tail
              (minOverSrc (m ((c.tc : Thread nD τ).loc main_arg0)) (m ((c.tc : Thread nD τ).loc main_arg1)))
              (minOverTgt (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v30).trans (after_out _),
      (h c main_arg0).trans (after_arg0 _),
      (h c main_arg1).trans (after_arg1 _)⟩)
    (run_seq scopedRefs_eq scopedSems_eq defs main (fun _ => ops) main_eq (fun _ => ops_sub) m ρ)

end Cert.RefSide

end
-- ==== Proof.RefRead.lean ====
/-
  The reference's table of squared distances and its two families of minima, read at an index.

  At (batch b, source point i, target point q) the table holds (|s_i|² + |t_q|²) − 2·⟨s_i, t_q⟩, the three sums taken
  over the three coordinates: each operation of the table's term is read at an index — a transposition swaps the last
  two coordinates, a sum over the last axis is the sum over that coordinate, the batched product contracts the
  coordinate axis, a broadcast forgets the coordinates its operand does not have — and the sums start from the word
  0, which denotes zero.  A minimum folded from the word of +∞ over one axis is the infimum over that axis's
  coordinate, so the two reductions of the table are the nearest-source and nearest-target values of `distR`.
-/
import proofs.«125909_j25039659336371_2_alg».proof.Proof.RefRun
import proofs.«125909_j25039659336371_2_alg».proof.Proof.LibFiniteEntries
import Idealize.ShloMosaic.Lib.Pipeline.Value
import Idealize.ShloMosaic.Lib.ValueIdx
import Idealize.ShloMosaic.PureOps.Ideal.Laws
import Idealize.ShloMosaic.PureOps.Reduce

noncomputable section

namespace Cert.RefSide

open Cert.ReferenceIdeal Cert.ReferenceIdeal.Gen Cert.Chamfer Idealize.ShloMosaic Idealize.ShloMosaic.ValueIdx

/-! ## The operations of the table, each read at an index -/

/-- The transposed cloud at (batch b, point n, coordinate d) is the cloud at (b, d, n). -/
theorem transposed_apply (x : FVec Ideal S8x3x4096 .f32) (b : Fin 8) (n : Fin 4096) (d : Fin 3) :
    (transpose S8x4096x3 [0, 2, 1] x transposes_S8x3x4096_S8x4096x3_0_2_1) (ix3 b n d) = x (ix3 b d n) :=
  transpose_apply [0, 2, 1] x transposes_S8x3x4096_S8x4096x3_0_2_1 (ix3 b n d) (ix3 b d n) (fun a => match a with
    | ⟨0, _⟩ => rfl
    | ⟨1, _⟩ => rfl
    | ⟨2, _⟩ => rfl)

/-- The sum over the coordinate axis of the squares of the transposed cloud, from the word 0, is |x_n|². -/
theorem sq_apply (x : FVec Ideal S8x3x4096 .f32) (b : Fin 8) (n : Fin 4096) :
    Host.reduceAdd (F := Ideal) (φ := .f32) (mulf (F := Ideal) (φ := .f32) (transpose S8x4096x3 [0, 2, 1] x transposes_S8x3x4096_S8x4096x3_0_2_1) (transpose S8x4096x3 [0, 2, 1] x transposes_S8x3x4096_S8x4096x3_0_2_1))
        (constant (F := Ideal) S_ .f32 0x00000000#32) reducesTo_S8x4096x3_S8x4096_d2 h_S_ (ix2 b n)
      = sqLen x b n := by
  have hR : S8x4096x3.Reduces [2] S8x4096 := by decide
  refine (Ideal.hostReduceAdd_single reducesTo_S8x4096x3_S8x4096_d2 hR _ _ (ix2 b n)).trans ?_
  show Ideal.ofBits .f32 0x00000000#32 + _ = _
  rw [Ideal.ofBits_zero_f32, zero_add]
  show _ = ∑ d : Fin 3, x (ix3 b d n) * x (ix3 b d n)
  refine Finset.sum_congr rfl fun (k : Fin 3) _ => ?_
  have hl : hR.lift (ix2 b n) k = ix3 b n k :=
    funext fun a => Fin.ext (by match a with | ⟨0, _⟩ => rfl | ⟨1, _⟩ => rfl | ⟨2, _⟩ => rfl)
  show (transpose S8x4096x3 [0, 2, 1] x transposes_S8x3x4096_S8x4096x3_0_2_1) (hR.lift (ix2 b n) k) * (transpose S8x4096x3 [0, 2, 1] x transposes_S8x3x4096_S8x4096x3_0_2_1) (hR.lift (ix2 b n) k) = _
  rw [hl, transposed_apply]

/-- The left operand's index of the batched product at result index j: j's batch and source coordinates, then the
    contraction coordinate. -/
theorem lhsIdx_val0 (j : S8x4096x4096.Idx) (κ : dot_S8x4096x3_S8x4096x3_S8x4096x4096_2_2_1_1_0_0.contr.Idx) : (dot_S8x4096x3_S8x4096x3_S8x4096x4096_2_2_1_1_0_0.lhsIdx j κ 0).val = (j 0).val := by
  unfold DotDims.lhsIdx
  rw [dif_pos (show (0 : Fin S8x4096x3.rank) ∈ dot_S8x4096x3_S8x4096x3_S8x4096x4096_2_2_1_1_0_0.lhsBatch by decide)]
  rfl
theorem lhsIdx_val1 (j : S8x4096x4096.Idx) (κ : dot_S8x4096x3_S8x4096x3_S8x4096x4096_2_2_1_1_0_0.contr.Idx) : (dot_S8x4096x3_S8x4096x3_S8x4096x4096_2_2_1_1_0_0.lhsIdx j κ 1).val = (j 1).val := by
  unfold DotDims.lhsIdx
  rw [dif_neg (show ¬(1 : Fin S8x4096x3.rank) ∈ dot_S8x4096x3_S8x4096x3_S8x4096x4096_2_2_1_1_0_0.lhsBatch by decide),
    dif_pos (show (1 : Fin S8x4096x3.rank) ∈ dot_S8x4096x3_S8x4096x3_S8x4096x4096_2_2_1_1_0_0.lhsNonContracting by decide)]
  rfl
theorem lhsIdx_val2 (j : S8x4096x4096.Idx) (κ : dot_S8x4096x3_S8x4096x3_S8x4096x4096_2_2_1_1_0_0.contr.Idx) : (dot_S8x4096x3_S8x4096x3_S8x4096x4096_2_2_1_1_0_0.lhsIdx j κ 2).val = (κ ⟨0, by decide⟩).val :=
  dot_S8x4096x3_S8x4096x3_S8x4096x4096_2_2_1_1_0_0.lhsIdx_val_of_single rfl j κ

/-- The right operand's index: j's batch and target coordinates, then the contraction coordinate. -/
theorem rhsIdx_val0 (j : S8x4096x4096.Idx) (κ : dot_S8x4096x3_S8x4096x3_S8x4096x4096_2_2_1_1_0_0.contr.Idx) : (dot_S8x4096x3_S8x4096x3_S8x4096x4096_2_2_1_1_0_0.rhsIdx j κ 0).val = (j 0).val := by
  unfold DotDims.rhsIdx
  rw [dif_pos (show (0 : Fin S8x4096x3.rank) ∈ dot_S8x4096x3_S8x4096x3_S8x4096x4096_2_2_1_1_0_0.rhsBatch by decide)]
  rfl
theorem rhsIdx_val1 (j : S8x4096x4096.Idx) (κ : dot_S8x4096x3_S8x4096x3_S8x4096x4096_2_2_1_1_0_0.contr.Idx) : (dot_S8x4096x3_S8x4096x3_S8x4096x4096_2_2_1_1_0_0.rhsIdx j κ 1).val = (j 2).val := by
  unfold DotDims.rhsIdx
  rw [dif_neg (show ¬(1 : Fin S8x4096x3.rank) ∈ dot_S8x4096x3_S8x4096x3_S8x4096x4096_2_2_1_1_0_0.rhsBatch by decide),
    dif_pos (show (1 : Fin S8x4096x3.rank) ∈ dot_S8x4096x3_S8x4096x3_S8x4096x4096_2_2_1_1_0_0.rhsNonContracting by decide)]
  rfl
theorem rhsIdx_val2 (j : S8x4096x4096.Idx) (κ : dot_S8x4096x3_S8x4096x3_S8x4096x4096_2_2_1_1_0_0.contr.Idx) : (dot_S8x4096x3_S8x4096x3_S8x4096x4096_2_2_1_1_0_0.rhsIdx j κ 2).val = (κ ⟨0, by decide⟩).val :=
  dot_S8x4096x3_S8x4096x3_S8x4096x4096_2_2_1_1_0_0.rhsIdx_val_of_single rfl j κ

/-- At result index (b, i, q) and contraction coordinate k the operand indices are (b, i, k) on the left and
    (b, q, k) on the right. -/
theorem lhsIdx_eq (b : Fin 8) (i q : Fin 4096) (k : Fin 3) :
    dot_S8x4096x3_S8x4096x3_S8x4096x4096_2_2_1_1_0_0.lhsIdx (ix3 b i q) ((contrEquiv1 dot_S8x4096x3_S8x4096x3_S8x4096x4096_2_2_1_1_0_0 3 rfl rfl).symm k) = ix3 b i k :=
  funext fun a => Fin.ext (by
    match a with
    | ⟨0, _⟩ => exact lhsIdx_val0 _ _
    | ⟨1, _⟩ => exact lhsIdx_val1 _ _
    | ⟨2, _⟩ => exact (lhsIdx_val2 _ _).trans (contrEquiv1_symm_val dot_S8x4096x3_S8x4096x3_S8x4096x4096_2_2_1_1_0_0 3 rfl rfl k))

theorem rhsIdx_eq (b : Fin 8) (i q : Fin 4096) (k : Fin 3) :
    dot_S8x4096x3_S8x4096x3_S8x4096x4096_2_2_1_1_0_0.rhsIdx (ix3 b i q) ((contrEquiv1 dot_S8x4096x3_S8x4096x3_S8x4096x4096_2_2_1_1_0_0 3 rfl rfl).symm k) = ix3 b q k :=
  funext fun a => Fin.ext (by
    match a with
    | ⟨0, _⟩ => exact rhsIdx_val0 _ _
    | ⟨1, _⟩ => exact rhsIdx_val1 _ _
    | ⟨2, _⟩ => exact (rhsIdx_val2 _ _).trans (contrEquiv1_symm_val dot_S8x4096x3_S8x4096x3_S8x4096x4096_2_2_1_1_0_0 3 rfl rfl k))

/-- The batched product of the two transposed clouds, contracted over the coordinate axis, is ⟨s_i, t_q⟩. -/
theorem dot_apply (x0 x1 : FVec Ideal S8x3x4096 .f32) (b : Fin 8) (i q : Fin 4096) :
    Host.dotGeneral (F := Ideal) (φ₁ := .f32) (φ₂ := .f32) dot_S8x4096x3_S8x4096x3_S8x4096x4096_2_2_1_1_0_0 none (transpose S8x4096x3 [0, 2, 1] x0 transposes_S8x3x4096_S8x4096x3_0_2_1) (transpose S8x4096x3 [0, 2, 1] x1 transposes_S8x3x4096_S8x4096x3_0_2_1) (ix3 b i q)
      = cross x0 x1 b i q := by
  simp only [Host.dotGeneral]
  rw [Ideal.dotGeneral_apply, ← Equiv.sum_comp (contrEquiv1 dot_S8x4096x3_S8x4096x3_S8x4096x4096_2_2_1_1_0_0 3 rfl rfl).symm]
  show _ = ∑ d : Fin 3, x0 (ix3 b d i) * x1 (ix3 b d q)
  refine Finset.sum_congr rfl fun k _ => ?_
  rw [lhsIdx_eq, rhsIdx_eq, transposed_apply, transposed_apply]

variable {α : Type}

/-- A value per (batch, source point), spread along the target axis, reads at (b, i, q) the value at (b, i). -/
theorem spreadSrc_apply (y : S8x4096.Idx → α) (b : Fin 8) (i q : Fin 4096) :
    broadcastInDim S8x4096x4096 ![0, 1, 2] bcast_S8x4096x1_S8x4096x4096_0_1_2
        (broadcastInDim S8x4096x1 ![0, 1] bcast_S8x4096_S8x4096x1_0_1 y) (ix3 b i q) = y (ix2 b i) := by
  refine (broadcastInDim_apply _ bcast_S8x4096x1_S8x4096x4096_0_1_2 _ (ix3 b i q) (ix3 b i (0 : Fin 1)) (fun a => match a with
    | ⟨0, _⟩ => by show b.val = if (8 : Nat) = 1 then 0 else b.val; rw [if_neg (by decide)]
    | ⟨1, _⟩ => by show i.val = if (4096 : Nat) = 1 then 0 else i.val; rw [if_neg (by decide)]
    | ⟨2, _⟩ => by show 0 = if (1 : Nat) = 1 then 0 else q.val; rw [if_pos rfl])).trans ?_
  exact broadcastInDim_apply _ bcast_S8x4096_S8x4096x1_0_1 y (ix3 b i (0 : Fin 1)) (ix2 b i) (fun a => match a with
    | ⟨0, _⟩ => by show b.val = if (8 : Nat) = 1 then 0 else b.val; rw [if_neg (by decide)]
    | ⟨1, _⟩ => by show i.val = if (4096 : Nat) = 1 then 0 else i.val; rw [if_neg (by decide)])

/-- A value per (batch, target point), spread along the source axis, reads at (b, i, q) the value at (b, q). -/
theorem spreadTgt_apply (y : S8x4096.Idx → α) (b : Fin 8) (i q : Fin 4096) :
    broadcastInDim S8x4096x4096 ![0, 1, 2] bcast_S8x1x4096_S8x4096x4096_0_1_2
        (broadcastInDim S8x1x4096 ![0, 2] bcast_S8x4096_S8x1x4096_0_2 y) (ix3 b i q) = y (ix2 b q) := by
  refine (broadcastInDim_apply _ bcast_S8x1x4096_S8x4096x4096_0_1_2 _ (ix3 b i q) (ix3 b (0 : Fin 1) q) (fun a => match a with
    | ⟨0, _⟩ => by show b.val = if (8 : Nat) = 1 then 0 else b.val; rw [if_neg (by decide)]
    | ⟨1, _⟩ => by show 0 = if (1 : Nat) = 1 then 0 else i.val; rw [if_pos rfl]
    | ⟨2, _⟩ => by show q.val = if (4096 : Nat) = 1 then 0 else q.val; rw [if_neg (by decide)])).trans ?_
  exact broadcastInDim_apply _ bcast_S8x4096_S8x1x4096_0_2 y (ix3 b (0 : Fin 1) q) (ix2 b q) (fun a => match a with
    | ⟨0, _⟩ => by show b.val = if (8 : Nat) = 1 then 0 else b.val; rw [if_neg (by decide)]
    | ⟨1, _⟩ => by show q.val = if (4096 : Nat) = 1 then 0 else q.val; rw [if_neg (by decide)])

/-- The splat of the word of 2.0 reads `two` everywhere. -/
theorem splatTwo_apply (j : S8x4096x4096.Idx) :
    broadcastInDim S8x4096x4096 ![] bcast_S_S8x4096x4096 (constant (F := Ideal) S_ .f32 0x40000000#32) j = two :=
  broadcastInDim_apply _ bcast_S_S8x4096x4096 (constant (F := Ideal) S_ .f32 0x40000000#32) j ix0 (fun a => a.elim0)

/-! ## The table -/

/-- THE TABLE AT AN INDEX: (|s_i|² + |t_q|²) − 2·⟨s_i, t_q⟩. -/
theorem dist_apply (x0 x1 : (⟨S8x3x4096, .f32⟩ : BufTy).Contents (Elt Ideal)) (b : Fin 8) (i q : Fin 4096) :
    dist x0 x1 (ix3 b i q) = distR x0 x1 b i q := by
  unfold dist
  show _ = (sqLen x0 b i + sqLen x1 b q) - two * cross x0 x1 b i q
  refine (subf_apply _ _ _).trans ?_
  refine congrArg₂ (· - ·) ((addf_apply _ _ _).trans (congrArg₂ (· + ·) ?_ ?_)) ((mulf_apply _ _ _).trans (congrArg₂ (· * ·) ?_ ?_))
  · exact (spreadSrc_apply _ b i q).trans (sq_apply x0 b i)
  · exact (spreadTgt_apply _ b i q).trans (sq_apply x1 b q)
  · exact splatTwo_apply _
  · exact dot_apply x0 x1 b i q

/-! ## The two families of minima -/

/-- A fold of the minimum from the word of +∞ is the infimum. -/
theorem fold_minimumf_eq_inf {ι : Type} (s : Finset ι) (f : ι → EReal) :
    s.fold (FloatOps.minimumf (F := Ideal) (φ := .f32)) (Ideal.ofBits .f32 0x7F800000#32) f = s.inf f := by
  rw [Cert.LibFiniteEntries.bound_is_top]
  induction s using Finset.cons_induction with
  | empty => rw [Finset.fold_empty, Finset.inf_empty]
  | cons a s ha ih =>
    rw [Finset.fold_cons, Finset.inf_cons, ih]
    rfl

/-- The minimum of the table over the source axis is, for each target point, the distance to the nearest source point. -/
theorem minOverSrc_eq (x0 x1 : (⟨S8x3x4096, .f32⟩ : BufTy).Contents (Elt Ideal)) :
    minOverSrc x0 x1 = nearestSrc (distR x0 x1) := by
  funext j
  obtain ⟨b, q, rfl⟩ : ∃ (b : Fin 8) (q : Fin 4096), j = ix2 b q := ⟨j 0, j 1, eq_ix2 j⟩
  have hR : S8x4096x4096.Reduces [1] S8x4096 := by decide
  unfold minOverSrc
  refine (Host.reduce_eq_fold_single (FloatOps.minimumf (F := Ideal) (φ := .f32)) (dist x0 x1) _
    reducesTo_S8x4096x4096_S8x4096_d1 hR h_S_ (ix2 b q)).trans ?_
  refine (fold_minimumf_eq_inf _ _).trans ?_
  rw [nearestSrc_apply]
  refine Finset.inf_congr rfl fun (i : Fin 4096) _ => ?_
  have hl : hR.lift (ix2 b q) i = ix3 b i q :=
    funext fun a => Fin.ext (by match a with | ⟨0, _⟩ => rfl | ⟨1, _⟩ => rfl | ⟨2, _⟩ => rfl)
  show dist x0 x1 (hR.lift (ix2 b q) i) = _
  rw [hl, dist_apply]

/-- The minimum of the table over the target axis is, for each source point, the distance to the nearest target point. -/
theorem minOverTgt_eq (x0 x1 : (⟨S8x3x4096, .f32⟩ : BufTy).Contents (Elt Ideal)) :
    minOverTgt x0 x1 = nearestTgt (distR x0 x1) := by
  funext j
  obtain ⟨b, i, rfl⟩ : ∃ (b : Fin 8) (i : Fin 4096), j = ix2 b i := ⟨j 0, j 1, eq_ix2 j⟩
  have hR : S8x4096x4096.Reduces [2] S8x4096 := by decide
  unfold minOverTgt
  refine (Host.reduce_eq_fold_single (FloatOps.minimumf (F := Ideal) (φ := .f32)) (dist x0 x1) _
    reducesTo_S8x4096x4096_S8x4096_d2 hR h_S_ (ix2 b i)).trans ?_
  refine (fold_minimumf_eq_inf _ _).trans ?_
  rw [nearestTgt_apply]
  refine Finset.inf_congr rfl fun (q : Fin 4096) _ => ?_
  have hl : hR.lift (ix2 b i) q = ix3 b i q :=
    funext fun a => Fin.ext (by match a with | ⟨0, _⟩ => rfl | ⟨1, _⟩ => rfl | ⟨2, _⟩ => rfl)
  show dist x0 x1 (hR.lift (ix2 b i) q) = _
  rw [hl, dist_apply]

end Cert.RefSide

end
-- ==== Proof.Finite.lean ====
/-
  The finiteness precondition, read at the ideal values.  The precondition of the two clouds is the "and" of two bits:
  for each cloud, the join by "and" over all its entries of the comparisons |entry| < +∞.  If the precondition is the
  bit 1, both joins are 1, hence every comparison is 1, hence every entry of both clouds is a real number.
-/
import proofs.«125909_j25039659336371_2_alg».proof.Pre_finite_inputs
import proofs.«125909_j25039659336371_2_alg».proof.Proof.Gen.Pre_finite_inputs
import proofs.«125909_j25039659336371_2_alg».proof.Proof.LibFiniteEntries

noncomputable section

namespace Cert.Chamfer

open Idealize.ShloMosaic

open Cert.LibFiniteEntries in
/-- If the finiteness precondition of two clouds holds, every entry of both is real: the "and" of two bits is 1 only
    when both are, and each bit is the join over one cloud of the comparisons |entry| < +∞. -/
theorem allReal_of_pre [Cert.Pre_finite_inputs.Facts] (x0 x1 : FVec Ideal Cert.Pre_finite_inputs.S8x3x4096 .f32)
    (h : Cert.Pre_finite_inputs.fn (F := Ideal) x0 x1 = fun _ => 1#1) : AllReal x0 ∧ AllReal x1 := by
  have h0 := congrFun h ValueIdx.ix0
  dsimp only [Cert.Pre_finite_inputs.fn, andi] at h0
  obtain ⟨ha, hb⟩ := IntOp.andi_eq_one.1 h0
  exact ⟨allReal_of_join x0 _ _ _ ha, allReal_of_join x1 _ _ _ hb⟩

end Cert.Chamfer

end
-- ==== Proof.lean ====
/-
  The certificate's claim.  Both programs compute, for eight pairs of clouds of 4096 points of ℝ³, the two-sided
  nearest-point distances — for every source point the least squared distance to a target point, for every target
  point the least squared distance to a source point — and then the same robust average of those 65536 minima.

  The reference forms the whole table of squared distances as (|s|² + |t|²) − 2⟨s, t⟩ and takes its row and column
  minima.  The kernel never forms the table: for one batch and one tile of 1024 source points at a time it multiplies the
  augmented source rows [s, 1, |s|²] with the augmented target rows [−2t, |t|², 1] (built once per batch and kept), takes
  the row minima of that product as the tile's nearest-target values, and folds its column minima into a running minimum
  that starts at +∞ with the batch's first tile and is complete after its fourth.  On finite inputs the product entry is
  the same real number as the reference's table entry, a minimum over 4096 points is the minimum of the four tile minima,
  and the last lines are the same function of the two families of minima; hence the two results are equal.  Finiteness of
  the inputs is used exactly once, for the identity between the two arrangements of the squared distance.
-/
import proofs.«125909_j25039659336371_2_alg».proof.Defs
import proofs.«125909_j25039659336371_2_alg».proof.Proof.Gen.Kernel
import proofs.«125909_j25039659336371_2_alg».proof.Proof.Gen.Kernel.Skeleton
import proofs.«125909_j25039659336371_2_alg».proof.Proof.Gen.Kernel.Launch
import proofs.«125909_j25039659336371_2_alg».proof.Proof.Gen.Kernel.Points
import proofs.«125909_j25039659336371_2_alg».proof.Proof.Gen.Kernel.Frame
import proofs.«125909_j25039659336371_2_alg».proof.Proof.Gen.KernelIdeal
import proofs.«125909_j25039659336371_2_alg».proof.Proof.Gen.KernelIdeal.Skeleton
import proofs.«125909_j25039659336371_2_alg».proof.Proof.Gen.KernelIdeal.Launch
import proofs.«125909_j25039659336371_2_alg».proof.Proof.Gen.KernelIdeal.Points
import proofs.«125909_j25039659336371_2_alg».proof.Proof.Gen.KernelIdeal.Frame
import proofs.«125909_j25039659336371_2_alg».proof.Proof.Gen.ReferenceIdeal
import proofs.«125909_j25039659336371_2_alg».proof.Proof.Gen.Pre_finite_inputs
import proofs.«125909_j25039659336371_2_alg».proof.Proof.KernelRun
import proofs.«125909_j25039659336371_2_alg».proof.Proof.RefRead
import proofs.«125909_j25039659336371_2_alg».proof.Proof.Finite
import proofs.«125909_j25039659336371_2_alg».proof.Proof.Algebra
import Idealize.ShloMosaic.Adequacy
import Idealize.ShloMosaic.Init

noncomputable section

namespace Cert.Proof

open Idealize.ShloMosaic Idealize.SL.Sem Cert.Chamfer

/-- The word-level kernel program runs and leaves its arguments alone. -/
theorem frame_k : Cert.frame_Kernel := fun m ρ _ => Cert.Kernel.Gen.frame m ρ

/-- So does the kernel program at the ideal values. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.RefSide.run m ρ)

/-- From memories that agree on the two clouds, both programs end at the shared last lines applied to the row and
    column minima of the distance table — the kernel's in its arrangement, the reference's in its own, which agree on
    the finite inputs the precondition grants. -/
theorem algebraic : Cert.algebraic_KernelIdeal_ReferenceIdeal := by
  intro m ρ m' ρ' hpre hagree
  refine ⟨fun c => tail (nearestSrc (distK (Cert.KernelIdeal.Inv.srcs m c) (Cert.KernelIdeal.Inv.tgts m c)))
      (nearestTgt (distK (Cert.KernelIdeal.Inv.srcs m c) (Cert.KernelIdeal.Inv.tgts m c))),
    Cert.KernelIdeal.Value.run m ρ, ?_⟩
  refine (θ_run Cert.ReferenceIdeal.defs _ _).mono (fun _ h c => ⟨(h c).1.trans ?_, (h c).2⟩)
    (Cert.RefSide.run m' ρ')
  obtain ⟨hS, hT⟩ := allReal_of_pre _ _ (hpre c)
  rw [(hagree c).1, (hagree c).2, Cert.RefSide.minOverSrc_eq, Cert.RefSide.minOverTgt_eq]
  show tail (nearestSrc (distR (Cert.KernelIdeal.Inv.srcs m c) (Cert.KernelIdeal.Inv.tgts m c)))
      (nearestTgt (distR (Cert.KernelIdeal.Inv.srcs m c) (Cert.KernelIdeal.Inv.tgts m c)))
    = tail (nearestSrc (distK (Cert.KernelIdeal.Inv.srcs m c) (Cert.KernelIdeal.Inv.tgts m c)))
      (nearestTgt (distK (Cert.KernelIdeal.Inv.srcs m c) (Cert.KernelIdeal.Inv.tgts m c)))
  rw [distK_eq_distR (Cert.KernelIdeal.Inv.srcs m c) (Cert.KernelIdeal.Inv.tgts m c) hS hT]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
